-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S32x512 : Shape := ⟨2, ![32, 512]⟩
abbrev S512x32 : Shape := ⟨2, ![512, 32]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S16x512x64x64 .f32) (main_arg1 : FVec F S32x512 .f32) (main_arg2 : FVec F S512x32 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S16x512x64x64 : Shape := ⟨4, ![16, 512, 64, 64]⟩
abbrev S32x512 : Shape := ⟨2, ![32, 512]⟩
abbrev S512x32 : Shape := ⟨2, ![512, 32]⟩
abbrev S16x64x64x512 : Shape := ⟨4, ![16, 64, 64, 512]⟩
abbrev S1x64x64x512 : Shape := ⟨4, ![1, 64, 64, 512]⟩
abbrev S64x64x512 : Shape := ⟨3, ![64, 64, 512]⟩
abbrev S4096x512 : Shape := ⟨2, ![4096, 512]⟩
abbrev S512 : Shape := ⟨1, ![512]⟩
abbrev S1x512 : Shape := ⟨2, ![1, 512]⟩
abbrev S1x32 : Shape := ⟨2, ![1, 32]⟩
abbrev S1x1x512 : Shape := ⟨3, ![1, 1, 512]⟩

abbrev nBuf : Space → Nat
  | .hbm => 6
  | .vmem => 6
  | .smem => 0
  | _ => 0

abbrev bufTy : (tb : Table) → Fin (tcTables nBuf tb) → BufTy
  | .hbm, ⟨0, _⟩ => ⟨S16x512x64x64, .f32⟩
  | .hbm, ⟨1, _⟩ => ⟨S32x512, .f32⟩
  | .hbm, ⟨2, _⟩ => ⟨S512x32, .f32⟩
  | .hbm, ⟨3, _⟩ => ⟨S16x64x64x512, .f32⟩
  | .hbm, ⟨4, _⟩ => ⟨S16x64x64x512, .f32⟩
  | .hbm, ⟨5, _⟩ => ⟨S16x512x64x64, .f32⟩
  | .local _ .vmem, ⟨0, _⟩ => ⟨S1x64x64x512, .f32⟩
  | .local _ .vmem, ⟨1, _⟩ => ⟨S1x64x64x512, .f32⟩
  | .local _ .vmem, ⟨2, _⟩ => ⟨S32x512, .f32⟩
  | .local _ .vmem, ⟨3, _⟩ => ⟨S512x32, .f32⟩
  | .local _ .vmem, ⟨4, _⟩ => ⟨S1x64x64x512, .f32⟩
  | .local _ .vmem, ⟨5, _⟩ => ⟨S1x64x64x512, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x512x64x64_S16x64x64x512_0_2_3_1 : S16x512x64x64.Transposes [0, 2, 3, 1] S16x64x64x512
  inb_S1x64x64x512_S1x64x64x512_0_0_0_0 : ∀ a, (![0, 0, 0, 0] : Fin 4 → Nat) a + S1x64x64x512.size a ≤ S1x64x64x512.size a
  h_S1x64x64x512 : 0 < S1x64x64x512.numel
  shapeCasts_S1x64x64x512_S64x64x512 : S1x64x64x512.ShapeCasts S64x64x512
  shapeCasts_S64x64x512_S4096x512 : S64x64x512.ShapeCasts S4096x512
  reduces_S4096x512_S512 : S4096x512.Reduces [0] S512
  shapeCasts_S512_S1x512 : S512.ShapeCasts S1x512
  inb_S32x512_S32x512_0_0 : ∀ a, (![0, 0] : Fin 2 → Nat) a + S32x512.size a ≤ S32x512.size a
  h_S32x512 : 0 < S32x512.numel
  inb_S512x32_S512x32_0_0 : ∀ a, (![0, 0] : Fin 2 → Nat) a + S512x32.size a ≤ S512x32.size a
  h_S512x32 : 0 < S512x32.numel
  shapeCasts_S1x512_S1x1x512 : S1x512.ShapeCasts S1x1x512
  broadcasts_S1x1x512_S64x64x512 : S1x1x512.Broadcasts S64x64x512
  shapeCasts_S64x64x512_S1x64x64x512 : S64x64x512.ShapeCasts S1x64x64x512
  transposes_S16x64x64x512_S16x512x64x64_0_3_1_2 : S16x64x64x512.Transposes [0, 3, 1, 2] S16x512x64x64
  dot_S1x512_S32x512_S1x32_1_1_0_0_n_n_wf : DotDims.WF S1x512 S32x512 S1x32 [1] [1] [0] [0] [] []
  dot_S1x32_S512x32_S1x512_1_1_0_0_n_n_wf : DotDims.WF S1x32 S512x32 S1x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x512.size a ≤ S16x64x64x512.size a
  hwx0_0 : ∀ i : grid0.Coords, EltTy.bits .f32 = 32 ∨ (Rect.block (s := S16x64x64x512) S1x64x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64x512.size a ≤ S16x64x64x512.size a
  hwx0_3 : ∀ i : grid0.Coords, EltTy.bits .f32 = 32 ∨ (Rect.block (s := S16x64x64x512) S1x64x64x512.size (cc0_transform_3 i) (hinb0_3 i)).WholeWords (EltTy.packing .f32)

variable [Facts₀]

def dot_S1x512_S32x512_S1x32_1_1_0_0_n_n : DotDims S1x512 S32x512 S1x32 where
  lhsContracting := [1]
  rhsContracting := [1]
  lhsNonContracting := [0]
  rhsNonContracting := [0]
  lhsBatch := []
  rhsBatch := []
  wf := dot_S1x512_S32x512_S1x32_1_1_0_0_n_n_wf
def dot_S1x32_S512x32_S1x512_1_1_0_0_n_n : DotDims S1x32 S512x32 S1x512 where
  lhsContracting := [1]
  rhsContracting := [1]
  lhsNonContracting := [0]
  rhsNonContracting := [0]
  lhsBatch := []
  rhsBatch := []
  wf := dot_S1x32_S512x32_S1x512_1_1_0_0_n_n_wf

abbrev win0_0 : Pipeline.Window sig grid0 :=
  Pipeline.Window.ofSpec (Memref.whole main_v0) S1x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S32x512 : Shape := ⟨2, ![32, 512]⟩
abbrev S512x32 : Shape := ⟨2, ![512, 32]⟩
abbrev S16x512x4096 : Shape := ⟨3, ![16, 512, 4096]⟩
abbrev S16x512x1 : Shape := ⟨3, ![16, 512, 1]⟩
abbrev S1x512x2048 : Shape := ⟨3, ![1, 512, 2048]⟩
abbrev S1x512x1 : Shape := ⟨3, ![1, 512, 1]⟩
abbrev S512x1 : Shape := ⟨2, ![512, 1]⟩
abbrev S512x2048 : Shape := ⟨2, ![512, 2048]⟩
abbrev S512 : Shape := ⟨1, ![512]⟩
abbrev S32x1 : Shape := ⟨2, ![32, 1]⟩

abbrev nBuf : Space → Nat
  | .hbm => 7
  | .vmem => 13
  | .smem => 0
  | _ => 0

abbrev bufTy : (tb : Table) → Fin (tcTables nBuf tb) → BufTy
  | .hbm, ⟨0, _⟩ => ⟨S16x512x64x64, .f32⟩
  | .hbm, ⟨1, _⟩ => ⟨S32x512, .f32⟩
  | .hbm, ⟨2, _⟩ => ⟨S512x32, .f32⟩
  | .hbm, ⟨3, _⟩ => ⟨S16x512x4096, .f32⟩
  | .hbm, ⟨4, _⟩ => ⟨S16x512x1, .f32⟩
  | .hbm, ⟨5, _⟩ => ⟨S16x512x4096, .f32⟩
  | .hbm, ⟨6, _⟩ => ⟨S16x512x64x64, .f32⟩
  | .local _ .vmem, ⟨0, _⟩ => ⟨S1x512x2048, .f32⟩
  | .local _ .vmem, ⟨1, _⟩ => ⟨S1x512x2048, .f32⟩
  | .local _ .vmem, ⟨2, _⟩ => ⟨S32x512, .f32⟩
  | .local _ .vmem, ⟨3, _⟩ => ⟨S512x32, .f32⟩
  | .local _ .vmem, ⟨4, _⟩ => ⟨S1x512x1, .f32⟩
  | .local _ .vmem, ⟨5, _⟩ => ⟨S1x512x1, .f32⟩
  | .local _ .vmem, ⟨6, _⟩ => ⟨S512x1, .f32⟩
  | .local _ .vmem, ⟨7, _⟩ => ⟨S1x512x2048, .f32⟩
  | .local _ .vmem, ⟨8, _⟩ => ⟨S1x512x2048, .f32⟩
  | .local _ .vmem, ⟨9, _⟩ => ⟨S1x512x1, .f32⟩
  | .local _ .vmem, ⟨10, _⟩ => ⟨S1x512x1, .f32⟩
  | .local _ .vmem, ⟨11, _⟩ => ⟨S1x512x2048, .f32⟩
  | .local _ .vmem, ⟨12, _⟩ => ⟨S1x512x2048, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16x512x64x64_S16x512x4096 : S16x512x64x64.ShapeCasts S16x512x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  inb_S32x512_S32x512_0_0 : ∀ a, (![0, 0] : Fin 2 → Nat) a + S32x512.size a ≤ S32x512.size a
  h_S32x512 : 0 < S32x512.numel
  inb_S512x32_S512x32_0_0 : ∀ a, (![0, 0] : Fin 2 → Nat) a + S512x32.size a ≤ S512x32.size a
  h_S512x32 : 0 < S512x32.numel
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  shapeCasts_S1x512x2048_S1x512x2048 : S1x512x2048.ShapeCasts S1x512x2048
  shapeCasts_S1x512x1_S1x512x1 : S1x512x1.ShapeCasts S1x512x1
  broadcasts_S1x512x1_S1x512x2048 : S1x512x1.Broadcasts S1x512x2048
  shapeCasts_S16x512x4096_S16x512x64x64 : S16x512x4096.ShapeCasts S16x512x64x64
  dot_S32x512_S512x1_S32x1_1_0_0_1_n_n_wf : DotDims.WF S32x512 S512x1 S32x1 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x512x4096.size a
  hwx0_0 : ∀ i : grid0.Coords, EltTy.bits .f32 = 32 ∨ (Rect.block (s := S16x512x4096) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S16x512x1.size a
  hwx0_3 : ∀ i : grid0.Coords, EltTy.bits .f32 = 32 ∨ (Rect.block (s := S16x512x1) S1x512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S16x512x4096.size a
  hwx1_0 : ∀ i : grid1.Coords, EltTy.bits .f32 = 32 ∨ (Rect.block (s := S16x512x4096) S1x512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S16x512x1.size a
  hwx1_1 : ∀ i : grid1.Coords, EltTy.bits .f32 = 32 ∨ (Rect.block (s := S16x512x1) S1x512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S16x512x4096.size a
  hwx1_2 : ∀ i : grid1.Coords, EltTy.bits .f32 = 32 ∨ (Rect.block (s := S16x512x4096) S1x512x2048.size (cc1_transform_2 i) (hinb1_2 i)).WholeWords (EltTy.packing .f32)

variable [Facts₀]

def dot_S32x512_S512x1_S32x1_1_0_0_1_n_n : DotDims S32x512 S512x1 S32x1 where
  lhsContracting := [1]
  rhsContracting := [0]
  lhsNonContracting := [0]
  rhsNonContracting := [1]
  lhsBatch := []
  rhsBatch := []
  wf := dot_S32x512_S512x1_S32x1_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Spec.lean ====
/-
  The squeeze-and-excitation map both programs compute, as one function of the three argument arrays over the
  extended reals, index by index.

  For a sample `n` and a channel `c` the 64 × 64 positions are summed (`pool`; position `s` of the flattened
  4096 is `(s / 64, s % 64)`), the sum is scaled by the float `1/4096` (`squeeze`), the 512 squeezed channels are
  contracted with the rows of the encoder weight and clamped below at zero (`hidden`, 32 values), those are
  contracted with the rows of the decoder weight (`logit`, 512 values), and the logistic `1 / (1 + e^(-a))`
  of the logit (`gate`) multiplies every position of the channel (`result`).  Float literals are kept as their
  bit patterns: the same pattern stands on both sides and is never evaluated.
-/
import Idealize.ShloMosaic.PureOps.Ideal
import Idealize.ShloMosaic.PureOps.Ideal.Laws
import Idealize.ShloMosaic.Lib.ValueIdx

noncomputable section

namespace Cert.SE

open Idealize.ShloMosaic Idealize.ShloMosaic.ValueIdx

/-- The activations `[16, 512, 64, 64]`, the encoder weight `[32, 512]` and the decoder weight `[512, 32]`. -/
abbrev SX : Shape := ⟨4, ![16, 512, 64, 64]⟩
abbrev SEnc : Shape := ⟨2, ![32, 512]⟩
abbrev SDec : Shape := ⟨2, ![512, 32]⟩

/-- Row and column of the flattened position `s`. -/
def hPos (s : Fin 4096) : Fin 64 := ⟨s.val / 64, by have := s.isLt; omega⟩
def wPos (s : Fin 4096) : Fin 64 := ⟨s.val % 64, by omega⟩

/-- The float `1/4096` (an exact power of two) and the float `1`, as their patterns. -/
def invS : EReal := Ideal.ofBits .f32 0x39800000#32
def one : EReal := Ideal.ofBits .f32 0x3F800000#32

variable (x : SX.Idx → EReal) (we : SEnc.Idx → EReal) (wd : SDec.Idx → EReal)

/-- The sum of channel `c` of sample `n` over all positions. -/
def pool (n : Fin 16) (c : Fin 512) : EReal := ∑ s : Fin 4096, x (ix4 n c (hPos s) (wPos s))

/-- Its scaled value, the channel's mean. -/
def squeeze (n : Fin 16) (c : Fin 512) : EReal := pool x n c * invS

/-- The encoder's output, clamped below at zero. -/
def hidden (n : Fin 16) (j : Fin 32) : EReal := max (∑ c : Fin 512, squeeze x n c * we (ix2 j c)) 0

/-- The decoder's output. -/
def logit (n : Fin 16) (c : Fin 512) : EReal := ∑ j : Fin 32, hidden x we n j * wd (ix2 c j)

/-- The logistic of the logit. -/
def gate (n : Fin 16) (c : Fin 512) : EReal := Ideal.div one (one + Ideal.exp (0 - logit x we wd n c))

/-- Every position of a channel scaled by the channel's gate. -/
def result : SX.Idx → EReal := fun i => x i * gate x we wd (i 0) (i 1)

theorem result_apply (n : Fin 16) (c : Fin 512) (h w : Fin 64) :
    result x we wd (ix4 n c h w) = x (ix4 n c h w) * gate x we wd n c := rfl

end Cert.SE

end
-- ==== Proof.KernelPayload.lean ====
/-
  The kernel body's arithmetic read at one element.

  The body loads one sample's block `[1, 64, 64, 512]` (channel last) and the two weights, and stores one block of the
  same shape. Its stored value at `(0, h, w, c)` is the loaded value there times the channel's gate: the 4096 positions
  of each channel are summed (the block is viewed `[4096, 512]`, row `r` being position `(r / 64, r % 64)`), the sums
  are scaled by the float `1/4096`, contracted over the 512 channels with each of the 32 rows of the encoder weight,
  clamped below at zero, contracted over the 32 hidden values with each of the 512 rows of the decoder weight, and the
  logistic `1 / (1 + e^(-a))` of that is spread over the channel's positions. Each layout operation is read at an
  index by the equality of row-major positions, each contraction as a sum over its one contracted coordinate.
  `pay_apply` states the result against the specification `Cert.SE.result`, for a block that is sample `n` of an
  array `X` of shape `[16, 512, 64, 64]` read with the channel moved last.
-/
import proofs.«132724_g2000304347827060_pallasbulk_1236_8_alg».proof.Proof.Spec
import proofs.«132724_g2000304347827060_pallasbulk_1236_8_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelSide

open Idealize.ShloMosaic Idealize.ShloMosaic.ValueIdx Cert.KernelIdeal Cert.KernelIdeal.Gen

/-- Dropping the block's leading unit axis: position `(h, w, c)` reads `(0, h, w, c)`. -/
theorem dropUnit_apply (v0 : Vec Ideal S1x64x64x512 .f32) (hc : S1x64x64x512.ShapeCasts S64x64x512) (h w : Fin 64) (c : Fin 512) :
    shapeCast S64x64x512 v0 hc (ix3 h w c) = v0 (ix4 (0 : Fin 1) h w c) :=
  shapeCast_apply v0 hc (ix3 h w c) (ix4 (0 : Fin 1) h w c) (by
    rw [Shape.rowMajor_val_four, Shape.rowMajor_val_three]
    show ((0 * 64 + h.val) * 64 + w.val) * 512 + c.val = (h.val * 64 + w.val) * 512 + c.val
    omega)

/-- Adding it back. -/
theorem addUnit_apply (v : FVec Ideal S64x64x512 .f32) (hc : S64x64x512.ShapeCasts S1x64x64x512) (h w : Fin 64) (c : Fin 512) :
    shapeCast S1x64x64x512 v hc (ix4 (0 : Fin 1) h w c) = v (ix3 h w c) :=
  shapeCast_apply v hc (ix4 (0 : Fin 1) h w c) (ix3 h w c) (by
    rw [Shape.rowMajor_val_four, Shape.rowMajor_val_three]
    show (h.val * 64 + w.val) * 512 + c.val = ((0 * 64 + h.val) * 64 + w.val) * 512 + c.val
    omega)

/-- Flattening the positions: row `r` of the `[4096, 512]` view is position `(r / 64, r % 64)`. -/
theorem flatten_apply (v : FVec Ideal S64x64x512 .f32) (hc : S64x64x512.ShapeCasts S4096x512) (r : Fin 4096) (c : Fin 512) :
    shapeCast S4096x512 v hc (ix2 r c) = v (ix3 (Cert.SE.hPos r) (Cert.SE.wPos r) c) :=
  shapeCast_apply v hc (ix2 r c) (ix3 (Cert.SE.hPos r) (Cert.SE.wPos r) c) (by
    rw [Shape.rowMajor_val_two, Shape.rowMajor_val_three]
    show (r.val / 64 * 64 + r.val % 64) * 512 + c.val = r.val * 512 + c.val
    omega)

/-- The sum down the rows of a `[4096, 512]` vector, at lane `c`. -/
theorem colSum_apply (v : FVec Ideal S4096x512 .f32) (hr : S4096x512.Reduces [0] S512) (hφ : FKind.Formats .f32)
    (hacc : (0x00000000#32 : BitVec 32) = 0x00000000#32) (c : Fin 512) :
    multiReduction .add [0] S512 v 0x00000000#32 hr hφ hacc (ix1 c) = ∑ r : Fin 4096, v (ix2 r c) := by
  refine (Ideal.multiReduction_add_single v 0x00000000#32 hr hφ hacc (ix1 c)).trans ?_
  refine Finset.sum_congr rfl fun r _ => congrArg v ?_
  funext a; apply Fin.ext
  match a with
  | ⟨0, _⟩ => rfl
  | ⟨1, _⟩ => rfl

/-- The lane sums viewed as one row. -/
theorem toRow_apply (v : FVec Ideal S512 .f32) (hc : S512.ShapeCasts S1x512) (c : Fin 512) :
    shapeCast S1x512 v hc (ix2 (0 : Fin 1) c) = v (ix1 c) :=
  shapeCast_apply v hc (ix2 (0 : Fin 1) c) (ix1 c) (by
    rw [Shape.rowMajor_val_two, Shape.rowMajor_val_one]
    show c.val = 0 * 512 + c.val
    omega)

/-- The first contraction: the row against every row of the encoder weight. -/
theorem encode_apply (a : FVec Ideal S1x512 .f32) (we : FVec Ideal S32x512 .f32) (j : Fin 32) :
    matmul dot_S1x512_S32x512_S1x32_1_1_0_0_n_n none a we (constant (F := Ideal) S1x32 .f32 0x00000000#32) (ix2 (0 : Fin 1) j)
      = ∑ c : Fin 512, a (ix2 (0 : Fin 1) c) * we (ix2 j c) := by
  show FloatOps.matmul _ none a we _ (ix2 (0 : Fin 1) j) = _
  rw [Ideal.matmul_constant_zero_apply, ← Equiv.sum_comp (contrEquiv1 dot_S1x512_S32x512_S1x32_1_1_0_0_n_n 512 rfl rfl).symm]
  refine Finset.sum_congr rfl fun c _ => ?_
  have c2 := contrEquiv1_symm_val dot_S1x512_S32x512_S1x32_1_1_0_0_n_n 512 rfl rfl c
  have l2 : dot_S1x512_S32x512_S1x32_1_1_0_0_n_n.lhsIdx (ix2 (0 : Fin 1) j) ((contrEquiv1 _ 512 rfl rfl).symm c) = ix2 (0 : Fin 1) c := by
    funext ax; apply Fin.ext
    match ax with
    | ⟨0, _⟩ => simp [DotDims.lhsIdx, dot_S1x512_S32x512_S1x32_1_1_0_0_n_n] <;> rfl
    | ⟨1, _⟩ => simp [DotDims.lhsIdx, dot_S1x512_S32x512_S1x32_1_1_0_0_n_n] <;> exact c2
  have r2 : dot_S1x512_S32x512_S1x32_1_1_0_0_n_n.rhsIdx (ix2 (0 : Fin 1) j) ((contrEquiv1 _ 512 rfl rfl).symm c) = ix2 j c := by
    funext ax; apply Fin.ext
    match ax with
    | ⟨0, _⟩ => simp [DotDims.rhsIdx, dot_S1x512_S32x512_S1x32_1_1_0_0_n_n] <;> rfl
    | ⟨1, _⟩ => simp [DotDims.rhsIdx, dot_S1x512_S32x512_S1x32_1_1_0_0_n_n] <;> exact c2
  rw [l2, r2]

/-- The second contraction: the hidden row against every row of the decoder weight. -/
theorem decode_apply (b : FVec Ideal S1x32 .f32) (wd : FVec Ideal S512x32 .f32) (c : Fin 512) :
    matmul dot_S1x32_S512x32_S1x512_1_1_0_0_n_n none b wd (constant (F := Ideal) S1x512 .f32 0x00000000#32) (ix2 (0 : Fin 1) c)
      = ∑ j : Fin 32, b (ix2 (0 : Fin 1) j) * wd (ix2 c j) := by
  show FloatOps.matmul _ none b wd _ (ix2 (0 : Fin 1) c) = _
  rw [Ideal.matmul_constant_zero_apply, ← Equiv.sum_comp (contrEquiv1 dot_S1x32_S512x32_S1x512_1_1_0_0_n_n 32 rfl rfl).symm]
  refine Finset.sum_congr rfl fun j _ => ?_
  have c2 := contrEquiv1_symm_val dot_S1x32_S512x32_S1x512_1_1_0_0_n_n 32 rfl rfl j
  have l2 : dot_S1x32_S512x32_S1x512_1_1_0_0_n_n.lhsIdx (ix2 (0 : Fin 1) c) ((contrEquiv1 _ 32 rfl rfl).symm j) = ix2 (0 : Fin 1) j := by
    funext ax; apply Fin.ext
    match ax with
    | ⟨0, _⟩ => simp [DotDims.lhsIdx, dot_S1x32_S512x32_S1x512_1_1_0_0_n_n] <;> rfl
    | ⟨1, _⟩ => simp [DotDims.lhsIdx, dot_S1x32_S512x32_S1x512_1_1_0_0_n_n] <;> exact c2
  have r2 : dot_S1x32_S512x32_S1x512_1_1_0_0_n_n.rhsIdx (ix2 (0 : Fin 1) c) ((contrEquiv1 _ 32 rfl rfl).symm j) = ix2 c j := by
    funext ax; apply Fin.ext
    match ax with
    | ⟨0, _⟩ => simp [DotDims.rhsIdx, dot_S1x32_S512x32_S1x512_1_1_0_0_n_n] <;> rfl
    | ⟨1, _⟩ => simp [DotDims.rhsIdx, dot_S1x32_S512x32_S1x512_1_1_0_0_n_n] <;> exact c2
  rw [l2, r2]

/-- The gate row spread over every position: position `(h, w)` of lane `c` reads the row's lane `c`. -/
theorem spread_apply (g : FVec Ideal S1x512 .f32) (hc : S1x512.ShapeCasts S1x1x512) (hb : S1x1x512.Broadcasts S64x64x512)
    (h w : Fin 64) (c : Fin 512) :
    broadcastTo S64x64x512 (shapeCast S1x1x512 g hc) hb (ix3 h w c) = g (ix2 (0 : Fin 1) c) := by
  refine (broadcastTo_apply _ hb (ix3 h w c) (ix3 (0 : Fin 1) (0 : Fin 1) c) (fun a => ?_)).trans ?_
  · match a with
    | ⟨0, _⟩ => rfl
    | ⟨1, _⟩ => rfl
    | ⟨2, _⟩ => rfl
  · exact shapeCast_apply g hc (ix3 (0 : Fin 1) (0 : Fin 1) c) (ix2 (0 : Fin 1) c) (by
      rw [Shape.rowMajor_val_two, Shape.rowMajor_val_three]
      show 0 * 512 + c.val = (0 * 1 + 0) * 512 + c.val
      omega)

/-- The exponential of a vector, at an index. -/
theorem exp_apply {s : Shape} {φ : FTy} (a : FVec Ideal s φ) (i : s.Idx) : exp a i = Ideal.exp (a i) := rfl

/-- The zero word, as the instance spells it. -/
theorem zero_word : (FloatOps.ofBits .f32 0x00000000#32 : Ideal .f32) = 0 := Ideal.ofBits_zero_f32

/-- The body's stored value at position `(h, w)` of lane `c`, when the loaded block is sample `n` of the activations
    with the channel last: the channel's value there times the channel's gate. The lane sums run over the 4096 rows
    of the flattened block, row `r` being position `(r / 64, r % 64)`; the two contractions run over the lanes. -/
theorem pay_apply (X : Cert.SE.SX.Idx → EReal) (n : Fin 16) (x0 : Vec Ideal S1x64x64x512 .f32)
    (we : Vec Ideal S32x512 .f32) (wd : Vec Ideal S512x32 .f32)
    (hx : ∀ (h w : Fin 64) (c : Fin 512), x0 (ix4 (0 : Fin 1) h w c) = X (ix4 n c h w))
    (h w : Fin 64) (c : Fin 512) :
    k0_pay1 (F := Ideal) x0 we wd (ix4 (0 : Fin 1) h w c) = Cert.SE.result X we wd (ix4 n c h w) := by
  unfold k0_pay1
  dsimp only
  refine (addUnit_apply _ _ h w c).trans ?_
  rw [mulf_apply, dropUnit_apply, spread_apply, divf_apply, addf_apply, exp_apply, subf_apply, broadcast_apply,
    broadcast_apply, zero_word, decode_apply, hx, Cert.SE.result_apply]
  refine congrArg (fun t => X (ix4 n c h w) * Ideal.div Cert.SE.one (Cert.SE.one + Ideal.exp (0 - t))) ?_
  refine Finset.sum_congr rfl fun j _ => congrArg (· * wd (ix2 c j)) ?_
  rw [maximumf_apply, broadcast_apply, encode_apply]
  refine congrArg (max · 0) (Finset.sum_congr rfl fun c' _ => congrArg (· * we (ix2 j c')) ?_)
  rw [mulf_apply, broadcast_apply, toRow_apply, colSum_apply]
  refine congrArg (· * Cert.SE.invS) (Finset.sum_congr rfl fun r _ => ?_)
  rw [flatten_apply, dropUnit_apply, hx]

end Cert.KernelSide

end
-- ==== Proof.KernelBlocks.lean ====
/-
  From the kernel's blocks to the region's output array.

  The region runs the body once per sample `t` of 16. At point `t` the body is given block `t` of the activations —
  which the host has already transposed to `[16, 64, 64, 512]`, so that block is sample `t` with the channel last —
  and the whole of each weight, and what it stores is written back as block `t` of the output array
  `[16, 64, 64, 512]`. By the body's arithmetic read at an element, that block is block `t` of ONE function of the
  three arguments, `chanLast`: at `(n, h, w, c)` the specification's result at `(n, c, h, w)`. A block's element
  `(0, h, w, c)` sits in the array at `(t, h, w, c)` (block index times block size plus the coordinate inside the
  block), the 16 blocks cover the array (index `i` lies in the block of point `i 0`), so the array ends holding
  `chanLast` of the arguments.
-/
import proofs.«132724_g2000304347827060_pallasbulk_1236_8_alg».proof.Proof.KernelPayload
import proofs.«132724_g2000304347827060_pallasbulk_1236_8_alg».proof.Proof.Gen.KernelIdeal.Frame
import Idealize.ShloMosaic.Lib.Pipeline.Value
import Idealize.ShloMosaic.Lib.Tactic

set_option maxRecDepth 16384

noncomputable section

namespace Cert.KernelSide

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The region's output array `[16, 64, 64, 512]` (channel last) as one function of the three argument arrays:
    at `(n, h, w, c)` the specification's result at `(n, c, h, w)`. -/
def chanLast (X : Cert.SE.SX.Idx → EReal) (we : Cert.SE.SEnc.Idx → EReal) (wd : Cert.SE.SDec.Idx → EReal) :
    S16x64x64x512.Idx → EReal :=
  fun i => Cert.SE.result X we wd (ix4 (i 0 : Fin 16) (i 3 : Fin 512) (i 1 : Fin 64) (i 2 : Fin 64))

theorem chanLast_apply (X : Cert.SE.SX.Idx → EReal) (we : Cert.SE.SEnc.Idx → EReal) (wd : Cert.SE.SDec.Idx → EReal)
    (n : Fin 16) (h w : Fin 64) (c : Fin 512) :
    chanLast X we wd (ix4 n h w c) = Cert.SE.result X we wd (ix4 n c h w) := rfl

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The printed index maps over the grid: point `t` takes block `t` along the sample axis of the activations and of
    the output, and the whole of each weight. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_3.index t (0 : Fin 4) = t.val ∧ win0_3.index t (1 : Fin 4) = 0 ∧ win0_3.index t (2 : Fin 4) = 0 ∧ win0_3.index t (3 : Fin 4) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The activations as the region finds them: the argument with the channel moved last. -/
theorem V_v0 (c : Dev nD) :
    (V m c main_v0 : S16x64x64x512.Idx → EReal)
      = transpose S16x64x64x512 [0, 2, 3, 1] (m ((c : Thread nD τ).loc main_arg0)) transposes_S16x512x64x64_S16x64x64x512_0_2_3_1 := by
  show StableHlo.after hostOps0 (fun b => m (c, b)) (Proc.devRef .tc main_v0) = _
  after_results

theorem V_v0_apply (c : Dev nD) (n : Fin 16) (h w : Fin 64) (ch : Fin 512) :
    (V m c main_v0 : S16x64x64x512.Idx → EReal) (ix4 n h w ch)
      = (m ((c : Thread nD τ).loc main_arg0) : Cert.SE.SX.Idx → EReal) (ix4 n ch h w) := by
  rw [V_v0]
  refine transpose_apply _ _ _ (ix4 n h w ch) (ix4 n ch h w) (fun b => ?_)
  match b with
  | ⟨0, _⟩ => rfl
  | ⟨1, _⟩ => rfl
  | ⟨2, _⟩ => rfl
  | ⟨3, _⟩ => rfl

/-- The sample a grid point works on. -/
def sampleOf (t : Fin cfg0.N) : Fin 16 := ⟨t.val, by have := t.isLt; have hN : cfg0.N = 16 := N_0; omega⟩

/-- Point `t`'s block of the activations is sample `t`, the channel last. -/
theorem iblk0_apply (c : Dev nD) (t : Fin cfg0.N) (h w : Fin 64) (ch : Fin 512) :
    (iblk m c 0 t : Vec Ideal S1x64x64x512 .f32) (ix4 (0 : Fin 1) h w ch)
      = (m ((c : Thread nD τ).loc main_arg0) : Cert.SE.SX.Idx → EReal) (ix4 (sampleOf t) ch h w) := by
  obtain ⟨e0, e1, e2, e3, -⟩ := idx_facts t
  unfold iblk
  rw [View.read_apply]
  refine Eq.trans ?_ (V_v0_apply m c _ h w ch)
  show V m c main_v0 _ = V m c main_v0 _
  refine congrArg (V m c main_v0) ?_
  funext a
  apply Fin.ext
  match a with
  | ⟨0, _⟩ => show win0_0.index t (0 : Fin 4) * 1 + 1 * 0 = t.val; omega
  | ⟨1, _⟩ => show win0_0.index t (1 : Fin 4) * 64 + 1 * h.val = h.val; omega
  | ⟨2, _⟩ => show win0_0.index t (2 : Fin 4) * 64 + 1 * w.val = w.val; omega
  | ⟨3, _⟩ => show win0_0.index t (3 : Fin 4) * 512 + 1 * ch.val = ch.val; omega

/-- Every point's block of the encoder weight is the whole weight. -/
theorem iblk1_eq (c : Dev nD) (t : Fin cfg0.N) :
    (iblk m c 1 t : Vec Ideal S32x512 .f32) = m ((c : Thread nD τ).loc main_arg1) := by
  obtain ⟨-, -, -, -, -, -, -, -, e0, e1, -⟩ := idx_facts t
  unfold iblk
  funext y
  rw [View.read_apply]
  refine Eq.trans ?_ (congrFun (V_main_arg1 m c) y)
  show V m c main_arg1 _ = V m c main_arg1 _
  refine congrArg (V m c main_arg1) ?_
  funext a
  apply Fin.ext
  match a with
  | ⟨0, _⟩ => show win0_1.index t (0 : Fin 2) * 32 + 1 * (y 0).val = (y 0).val; omega
  | ⟨1, _⟩ => show win0_1.index t (1 : Fin 2) * 512 + 1 * (y 1).val = (y 1).val; omega

/-- Every point's block of the decoder weight is the whole weight. -/
theorem iblk2_eq (c : Dev nD) (t : Fin cfg0.N) :
    (iblk m c 2 t : Vec Ideal S512x32 .f32) = m ((c : Thread nD τ).loc main_arg2) := by
  obtain ⟨-, -, -, -, -, -, -, -, -, -, e0, e1⟩ := idx_facts t
  unfold iblk
  funext y
  rw [View.read_apply]
  refine Eq.trans ?_ (congrFun (V_main_arg2 m c) y)
  show V m c main_arg2 _ = V m c main_arg2 _
  refine congrArg (V m c main_arg2) ?_
  funext a
  apply Fin.ext
  match a with
  | ⟨0, _⟩ => show win0_2.index t (0 : Fin 2) * 512 + 1 * (y 0).val = (y 0).val; omega
  | ⟨1, _⟩ => show win0_2.index t (1 : Fin 2) * 32 + 1 * (y 1).val = (y 1).val; omega

/-- What point `t` writes back is block `t` of `chanLast` of the three arguments. -/
theorem flushed_eq (c : Dev nD) (t : Fin cfg0.N) :
    (dats m 0 c).flushed 3 t = ((cfg0.win 3).blk t).view.read (Elt Ideal)
      (chanLast (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz4]
  simp only [View.ld_unit_zero (S := S1x64x64x512) hz4, View.ld_unit_zero (S := S32x512) hz2, View.ld_unit_zero (S := S512x32) hz2]
  obtain ⟨-, -, -, -, e0, e1, e2, e3, -⟩ := idx_facts t
  funext y
  obtain ⟨z, h, w, ch, rfl⟩ : ∃ (z : Fin 1) (h w : Fin 64) (ch : Fin 512), y = ix4 z h w ch := ⟨y 0, y 1, y 2, y 3, eq_ix4 y⟩
  obtain rfl : z = 0 := Subsingleton.elim _ _
  rw [View.read_apply]
  show k0_pay1 (F := Ideal) (iblk m c 0 t) (iblk m c 1 t) (iblk m c 2 t) (ix4 (0 : Fin 1) h w ch) = _
  refine (pay_apply (m ((c : Thread nD τ).loc main_arg0)) (sampleOf t) (iblk m c 0 t) (iblk m c 1 t) (iblk m c 2 t)
    (fun h w ch => iblk0_apply m c t h w ch) h w ch).trans ?_
  rw [iblk1_eq, iblk2_eq]
  refine (chanLast_apply _ _ _ (sampleOf t) h w ch).symm.trans ?_
  refine congrArg (chanLast _ _ _) ?_
  funext a
  apply Fin.ext
  match a with
  | ⟨0, _⟩ => show t.val = win0_3.index t (0 : Fin 4) * 1 + 1 * 0; omega
  | ⟨1, _⟩ => show h.val = win0_3.index t (1 : Fin 4) * 64 + 1 * h.val; omega
  | ⟨2, _⟩ => show w.val = win0_3.index t (2 : Fin 4) * 64 + 1 * w.val; omega
  | ⟨3, _⟩ => show ch.val = win0_3.index t (3 : Fin 4) * 512 + 1 * ch.val; omega

/-- An index of the output array is in point `t`'s block iff each coordinate is in the block's range on its axis. -/
theorem mem_blk (t : Fin cfg0.N) (i : S16x64x64x512.Idx) :
    i ∈ ((cfg0.win 3).blk t).view.set ↔ ∀ a : Fin 4, win0_3.index t a * S1x64x64x512.size a ≤ (i a).val ∧ (i a).val < win0_3.index t a * S1x64x64x512.size a + S1x64x64x512.size a := by
  show i ∈ ((View.whole main_v1).slice (win0_3.rect t)).set ↔ _
  rw [View.set_slice_whole, Rect.mem_set_unit]
  exact Iff.rfl

/-- Every index of the output array is in the block of the point that works on its sample. -/
theorem cover (i : S16x64x64x512.Idx) :
    ∃ t : Fin cfg0.N, (cfg0.win 3).flush t = true ∧ i ∈ ((cfg0.win 3).blk t).view.set := by
  have hN : cfg0.N = 16 := N_0
  have h0 : (i 0).val < 16 := (i 0).isLt
  have h1 : (i 1).val < 64 := (i 1).isLt
  have h2 : (i 2).val < 64 := (i 2).isLt
  have h3 : (i 3).val < 512 := (i 3).isLt
  refine ⟨⟨(i 0).val, by omega⟩, flush0_3 _, ?_⟩
  obtain ⟨-, -, -, -, e0, e1, e2, e3, -⟩ := idx_facts ⟨(i 0).val, by omega⟩
  rw [mem_blk]
  intro a
  match a with
  | ⟨0, _⟩ => show win0_3.index ⟨(i 0).val, _⟩ (0 : Fin 4) * 1 ≤ (i 0).val ∧ (i 0).val < win0_3.index ⟨(i 0).val, _⟩ (0 : Fin 4) * 1 + 1; simp only at e0; omega
  | ⟨1, _⟩ => show win0_3.index ⟨(i 0).val, _⟩ (1 : Fin 4) * 64 ≤ (i 1).val ∧ (i 1).val < win0_3.index ⟨(i 0).val, _⟩ (1 : Fin 4) * 64 + 64; omega
  | ⟨2, _⟩ => show win0_3.index ⟨(i 0).val, _⟩ (2 : Fin 4) * 64 ≤ (i 2).val ∧ (i 2).val < win0_3.index ⟨(i 0).val, _⟩ (2 : Fin 4) * 64 + 64; omega
  | ⟨3, _⟩ => show win0_3.index ⟨(i 0).val, _⟩ (3 : Fin 4) * 512 ≤ (i 3).val ∧ (i 3).val < win0_3.index ⟨(i 0).val, _⟩ (3 : Fin 4) * 512 + 512; omega

/-- So the region's output array ends holding `chanLast` of the three arguments. -/
theorem final (c : Dev nD) :
    (dats m 0 c).arrAt 3 cfg0.N
      = chanLast (m ((c : Thread nD τ).loc main_arg0)) (m ((c : Thread nD τ).loc main_arg1)) (m ((c : Thread nD τ).loc main_arg2)) :=
  (dats m 0 c).arrAt_eq_of_cover 3 _ (fun t _ => flushed_eq m c t) cover

end Cert.KernelSide

end
-- ==== Proof.KernelValue.lean ====
/-
  The kernel program's value.

  The program transposes the activations to `[16, 64, 64, 512]`, runs the region, and transposes the region's output
  array `[16, 64, 64, 512]` back to `[16, 512, 64, 64]`. The region's output array ends holding, at `(n, h, w, c)`,
  the specification's result at `(n, c, h, w)`; the last transpose reads result index `(n, c, h, w)` at
  `(n, h, w, c)` of that array, so the result buffer ends holding the specification's result of the three argument
  arrays. The arguments themselves are never written: the first by no host line and no window, the two weights
  staged by windows that are only read.
-/
import proofs.«132724_g2000304347827060_pallasbulk_1236_8_alg».proof.Proof.KernelBlocks
import proofs.«132724_g2000304347827060_pallasbulk_1236_8_alg».proof.Proof.Gen.KernelIdeal.Frame
import Idealize.ShloMosaic.Lib.Pipeline.Value
import Idealize.ShloMosaic.Lib.Tactic

set_option maxRecDepth 16384

noncomputable section

namespace Cert.KernelSide

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- What the host's last transpose leaves in the result buffer: the region's output array with the channel moved back
    to the second axis, which is the specification's result. -/
theorem tail_eq (c : Dev nD) :
    Pipeline.afterTail₀ cfgs (dats m) 0 (V0 m) [hostOps1] c main_v2
      = Cert.SE.result (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = chanLast (m ((c : Thread nD τ).loc main_arg0)) (m ((c : Thread nD τ).loc main_arg1)) (m ((c : Thread nD τ).loc main_arg2)) :=
    (Pipeline.withArrays_arr spec0 launch0.win.arr_inj c _ _ 3).trans (final m c)
  rw [e]
  funext i
  obtain ⟨n, ch, h, w, rfl⟩ : ∃ (n : Fin 16) (ch : Fin 512) (h w : Fin 64), i = ix4 n ch h w := ⟨i 0, i 1, i 2, i 3, eq_ix4 i⟩
  refine (transpose_apply _ _ _ (ix4 n ch h w) (ix4 n h w ch) (fun b => ?_)).trans (chanLast_apply _ _ _ n h w ch)
  match b with
  | ⟨0, _⟩ => rfl
  | ⟨1, _⟩ => rfl
  | ⟨2, _⟩ => rfl
  | ⟨3, _⟩ => rfl

/-- THE KERNEL SIDE'S VALUE: every weakly fair execution of the idealized kernel program terminates with the result
    buffer at the specification's result of the three argument arrays, and the arguments unchanged. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2) = Cert.SE.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨((h c).2 Cert.KernelIdeal.main_v2 (Pipeline.mem_restRefs_of Cert.KernelIdeal.main_v2 (by decide) (by decide))).trans (Cert.KernelSide.tail_eq m c),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).1 1).trans (((Cert.KernelIdeal.Gen.dats m 0 c).arrAt_in 1 rfl _).trans ((Cert.KernelIdeal.Gen.A_eq m c 1).trans (Cert.KernelIdeal.Gen.V_main_arg1 m c))),
      ((h c).1 2).trans (((Cert.KernelIdeal.Gen.dats m 0 c).arrAt_in 2 rfl _).trans ((Cert.KernelIdeal.Gen.A_eq m c 2).trans (Cert.KernelIdeal.Gen.V_main_arg2 m c)))⟩)
    (Cert.KernelIdeal.Gen.run_main m ρ)

end Cert.KernelSide

end
-- ==== Proof.RefPool.lean ====
/-
  The pooling region of the reference (its first pallas_call) at the contents `V` the region is entered with.
  Grid point `t` is a sample and one of its two tiles of 2048 positions.  At a sample's first tile the body
  zeroes the running sums held in a scratch column `[512, 1]`; at every tile it adds the tile's row sums to
  them; at the sample's last tile it scales them to means, contracts with the two weights and stores the logistic
  gate `[1, 512, 1]`.  Stated here: each window's block at a point, the two control cases decided over the grid,
  and the body's triple in each case, in terms of the body's three pure payloads.
-/
import proofs.«132724_g2000304347827060_pallasbulk_1236_8_alg».proof.Proof.Gen.ReferenceIdeal.Launch
import proofs.«132724_g2000304347827060_pallasbulk_1236_8_alg».proof.Proof.Gen.ReferenceIdeal.Skeleton
import proofs.«132724_g2000304347827060_pallasbulk_1236_8_alg».proof.Proof.Gen.ReferenceIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the tile is
    fetched at every point, the two weights once (their block never moves). -/
theorem pbefore_0_of {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore_1_of {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore_2_of {c : Dev nD} (dat : Dat τ (Elt F) Unit ℕ (UR sig nD τ) ℕ cfg0 c) (hA : dat.A 2 = V c (Pipeline.arrRef spec0 2))
    (hafter : ∀ t, dat.after 2 t = pblk V c 2 t) (t : Fin cfg0.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)

/-- Zero offsets, however spelt. -/
theorem zeros2 : (![0, 0] : Fin 2 → ℕ) = fun _ => 0 := by funext a; fin_cases a <;> rfl
theorem zeros3 : (![0, 0, 0] : Fin 3 → ℕ) = fun _ => 0 := by funext a; fin_cases a <;> rfl

/-- The two conditions of the body, from the grid coordinates: the point is a sample's first tile; it is its last. -/
abbrev firstTile (i : grid0.Coords) : Prop := (Scalar.cmpi .ne (Scalar.extui (Scalar.cmpi .eq (BitVec.ofNat 32 (i 1).val) 0#32)) 0#32) = 1#1
abbrev lastTile (i : grid0.Coords) : Prop := k0_cond2 i = 1#1
/-- With two tiles per sample the even points are first tiles and the odd points last tiles — decided over the grid. -/
theorem firstTile_iff : ∀ t : Fin cfg0.N, firstTile (grid0.coords t) ↔ t.val % 2 = 0 :=
  (by decide +kernel : ∀ t : Fin grid0.N, firstTile (grid0.coords t) ↔ t.val % 2 = 0)
theorem lastTile_iff : ∀ t : Fin cfg0.N, lastTile (grid0.coords t) ↔ t.val % 2 = 1 :=
  (by decide +kernel : ∀ t : Fin grid0.N, lastTile (grid0.coords t) ↔ t.val % 2 = 1)
/-- The gate window is idle exactly at the first tiles (the body stores it at last tiles only). -/
theorem gate_idle_iff : ∀ t : Fin cfg0.N, cfg0.idle 3 (cfg0.grid.coords t) = decide (t.val % 2 = 0) :=
  (by decide +kernel : ∀ t : Fin grid0.N, idle0 3 (grid0.coords t) = decide (t.val % 2 = 0))

set_option maxHeartbeats 1000000 in
/-- A FIRST tile that is not the last: from the tile `x0` and the scratch at anything, the body leaves the tile as it
    was and the scratch at the tile's row sums added to the zero column. -/
theorem pool_first_run (c : Dev nD) (E : Set ℕ) (i : grid0.Coords) (hA : firstTile i) (hB : ¬ lastTile i)
    (arg2 : Memref sig .tc .vmem S1x512x2048 .f32) (harg2 : arg2.IsWhole) (arg3 : Memref sig .tc .vmem S32x512 .f32) (harg3 : arg3.IsWhole)
    (arg4 : Memref sig .tc .vmem S512x32 .f32) (harg4 : arg4.IsWhole) (arg5 : Memref sig .tc .vmem S1x512x1 .f32) (harg5 : arg5.IsWhole)
    (arg6 : Memref sig .tc .vmem S512x1 .f32) (harg6 : arg6.IsWhole)
    (x0 : Vec F S1x512x2048 .f32) (K : PUnit → sProp 𝕄) :
    iprop(owns (c : Thread nD τ) arg2 fullShare x0 ∗ (∃ a, owns (c : Thread nD τ) arg6 fullShare a)
        ∗ (iprop(owns (c : Thread nD τ) arg2 fullShare x0 ∗ owns (c : Thread nD τ) arg6 fullShare (k0_pay2 x0 (k0_pay1 (F := F)))) -∗ K ⟨⟩))
      ⊢ wp frame (wpE (defs₀ (F := F)) Variants.none c none) E (cc0__pool_mlp_kernel i arg2 harg2 arg3 harg3 arg4 harg4 arg5 harg5 arg6 harg6) K := by
  simp only [cc0__pool_mlp_kernel_eq_skeleton]; unfold cc0__pool_mlp_kernel_skel
  unfold owns
  iintro ⟨⟨%f0, %hf0, H0⟩, ⟨%a, %fa, -, Ha⟩, Hk⟩
  subst hf0
  sl_exec (disch := first | exact hA | exact hB)
  sl_step
  iapply Hk
  isplitl [H0]
  · iexists f0; isplitr; · ipureintro; rfl
    iexact H0
  iexists _; isplitr
  swap; · iexact Ha
  ipureintro
  rw [View.read_writes_eq_canon _ _ _ (fun y => ⟨_, List.mem_cons_self .., View.mem_set_unit_zero zeros2 inb_S512x1_S512x1_0_0 y⟩)]
  sl_unfold_run_names
  rw [View.canon_cons_unit_zero zeros2, View.readAt_eq_ld, View.readCov_unit_zero _ zeros2, View.ld_unit_zero zeros3]

set_option maxHeartbeats 1000000 in
/-- A LAST tile that is not the first: from the tile `x0`, the weights `x1`, `x2`, the scratch at the running sums
    `a` and the gate buffer at anything, the body leaves the inputs as they were, the scratch at `a` plus the tile's row
    sums, and the gate buffer at the gate of those sums. -/
theorem pool_last_run (c : Dev nD) (E : Set ℕ) (i : grid0.Coords) (hA : ¬ firstTile i) (hB : lastTile i)
    (arg2 : Memref sig .tc .vmem S1x512x2048 .f32) (harg2 : arg2.IsWhole) (arg3 : Memref sig .tc .vmem S32x512 .f32) (harg3 : arg3.IsWhole)
    (arg4 : Memref sig .tc .vmem S512x32 .f32) (harg4 : arg4.IsWhole) (arg5 : Memref sig .tc .vmem S1x512x1 .f32) (harg5 : arg5.IsWhole)
    (arg6 : Memref sig .tc .vmem S512x1 .f32) (harg6 : arg6.IsWhole)
    (x0 : Vec F S1x512x2048 .f32) (x1 : Vec F S32x512 .f32) (x2 : Vec F S512x32 .f32) (a : Vec F S512x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 a) x1 x2) ∗ owns (c : Thread nD τ) arg6 fullShare (k0_pay2 x0 a)) -∗ K ⟨⟩))
      ⊢ wp frame (wpE (defs₀ (F := F)) Variants.none c none) E (cc0__pool_mlp_kernel i arg2 harg2 arg3 harg3 arg4 harg4 arg5 harg5 arg6 harg6) K := by
  simp only [cc0__pool_mlp_kernel_eq_skeleton]; unfold cc0__pool_mlp_kernel_skel
  unfold owns
  iintro ⟨⟨%f0, %hf0, H0⟩, ⟨%f1, %hf1, H1⟩, ⟨%f2, %hf2, H2⟩, ⟨%d3, %f3, -, H3⟩, ⟨%fa, %hfa, Ha⟩, Hk⟩
  subst hf0 hf1 hf2 hfa
  sl_exec (disch := first | exact hA | exact hB)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (fun y => ⟨_, List.mem_cons_self .., View.mem_set_unit_zero zeros3 inb_S1x512x1_S1x512x1_0_0_0 y⟩)]
    rw [View.canon_cons_unit_zero zeros3]
    simp only [View.readAt_eq_ld]
    rw [View.readCov_unit_zero (S := S512x1) _ zeros2, View.ld_unit_zero (S := S1x512x2048) zeros3, View.ld_unit_zero (S := S512x1) zeros2,
      View.ld_unit_zero (S := S32x512) zeros2, View.ld_unit_zero (S := S512x32) zeros2]
  iexists _; isplitr
  swap; · iexact Ha
  ipureintro
  sl_unfold_run_names
  rw [View.read_writes_eq_canon _ _ _ (fun y => ⟨_, List.mem_cons_self .., View.mem_set_unit_zero zeros2 inb_S512x1_S512x1_0_0 y⟩)]
  rw [View.canon_cons_unit_zero zeros2]
  simp only [View.readAt_eq_ld]
  rw [View.ld_unit_zero (S := S1x512x2048) zeros3, View.ld_unit_zero (S := S512x1) zeros2]

end Cert.ReferenceIdeal.Hand

end
-- ==== Proof.RefPoolData.lean ====
/-
  The proof data of the pooling region and its obligation at every point.  The scratch column carries the running
  channel sums of the sample from a first tile to the last: `accAt n` is what it holds after point `n` — the tile's
  row sums added to the zero column at a first tile, to the sums so far otherwise.  The region's invariant keeps
  the scratch (at `accAt` of the point before whenever that point was a first tile), the other region's staging
  buffers and the generator register.  The gate window is idle at first tiles — its buffer is handed back as found
  — and at a last tile holds the gate of the sample's sums over both tiles.
-/
import proofs.«132724_g2000304347827060_pallasbulk_1236_8_alg».proof.Proof.RefPool

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scratch column after point `n`. -/
def accAt (c : Dev nD) : (n : ℕ) → n < cfg0.N → Vec F S512x1 .f32
  | 0, hn => k0_pay2 (pblk V c 0 ⟨0, hn⟩) (k0_pay1 (F := F))
  | n + 1, hn => k0_pay2 (pblk V c 0 ⟨n + 1, hn⟩) (if (n + 1) % 2 = 0 then k0_pay1 (F := F) else accAt c n (Nat.lt_of_succ_lt hn))

theorem accAt_congr (c : Dev nD) {n n' : ℕ} (e : n = n') (h : n < cfg0.N) (h' : n' < cfg0.N) : accAt V c n h = accAt V c n' h' := by
  subst e; rfl

/-- At a first tile: the tile's row sums over the zero column. -/
theorem accAt_first (c : Dev nD) (t : Fin cfg0.N) (h : t.val % 2 = 0) :
    accAt V c t.val t.isLt = k0_pay2 (pblk V c 0 t) (k0_pay1 (F := F)) := by
  obtain ⟨n, hn⟩ := t
  cases n with
  | zero => rfl
  | succ n => dsimp only at h; rw [accAt, if_pos h]

/-- At a last tile: the tile's row sums over what the point before left. -/
theorem accAt_last (c : Dev nD) (t : Fin cfg0.N) (h : t.val % 2 = 1) :
    accAt V c t.val t.isLt = k0_pay2 (pblk V c 0 t) (accAt V c (t.val - 1) (Nat.lt_of_le_of_lt (Nat.sub_le _ _) t.isLt)) := by
  obtain ⟨n, hn⟩ := t
  cases n with
  | zero => exact absurd h (by dsimp only; omega)
  | succ n => dsimp only at h; rw [accAt, if_neg (by omega)]; rfl

/-- The other region's staging buffers, each whole at some contents: the scoped buffers of the core that are
    neither a staging buffer of this region nor its scratch. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's invariant before point `k`: the scratch at some column, which after a first tile is that tile's
    `accAt`; the other scoped buffers; the generator register. -/
def poolInv (c : Dev nD) (k : Fin (cfg0.N + 1)) : sProp 𝕄 :=
  iprop((∃ X : Vec F S512x1 .f32, ⌜∀ h : k.val % 2 = 1, X = accAt V c (k.val - 1) (by have := k.isLt; omega)⌝
      ∗ owns (c : Thread nD τ) (Memref.whole cc0_scratch0 : Memref sig .tc .vmem S512x1 .f32) fullShare X)
    ∗ otherScoped (F := F) c ∗ ∃ r, prngReg c r)

/-- The proof data of the pooling pipeline on core `c`. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => pblk V c 2 t
    | ⟨3, _⟩ => k0_pay3 (accAt V c t.val t.isLt) (pblk V c 1 t) (pblk V c 2 t)
  Φ k := poolInv V c k
  q _ := fullShare
  owed _ := 0

theorem pdat_A (c : Dev nD) (w : Fin cfg0.W) : (pdat V c).A w = V c (Pipeline.arrRef spec0 w) := by dsimp only [pdat]
theorem pdat_Φ (c : Dev nD) (k : Fin (cfg0.N + 1)) : (pdat V c).Φ k = poolInv V c k := by dsimp only [pdat]
theorem pdat_after_0 (c : Dev nD) (t : Fin cfg0.N) : (pdat V c).after 0 t = pblk V c 0 t := by dsimp only [pdat]
theorem pdat_after_1 (c : Dev nD) (t : Fin cfg0.N) : (pdat V c).after 1 t = pblk V c 1 t := by dsimp only [pdat]
theorem pdat_after_2 (c : Dev nD) (t : Fin cfg0.N) : (pdat V c).after 2 t = pblk V c 2 t := by dsimp only [pdat]
theorem pdat_after_3 (c : Dev nD) (t : Fin cfg0.N) :
    (pdat V c).after 3 t = k0_pay3 (accAt V c t.val t.isLt) (pblk V c 1 t) (pblk V c 2 t) := by dsimp only [pdat]
theorem pdat_before_0 (c : Dev nD) (t : Fin cfg0.N) (d) : (pdat V c).before 0 t d = pblk V c 0 t :=
  pbefore_0_of V (pdat V c) (pdat_A V c 0) (pdat_after_0 V c) t d
theorem pdat_before_1 (c : Dev nD) (t : Fin cfg0.N) (d) : (pdat V c).before 1 t d = pblk V c 1 t :=
  pbefore_1_of V (pdat V c) (pdat_A V c 1) (pdat_after_1 V c) t d
theorem pdat_before_2 (c : Dev nD) (t : Fin cfg0.N) (d) : (pdat V c).before 2 t d = pblk V c 2 t :=
  pbefore_2_of V (pdat V c) (pdat_A V c 2) (pdat_after_2 V c) t d

theorem gate_flush_iff (t : Fin cfg0.N) : (cfg0.win 3).flush t = true ↔ t.val % 2 = 1 := flush0_3 t

/-- The gate window's buffer is fresh at a first tile (the point before, if any, wrote it back) … -/
theorem pdat_before_3_first (c : Dev nD) (t : Fin cfg0.N) (h : t.val % 2 = 0) (d) : (pdat V c).before 3 t d = d := by
  refine (pdat V c).before_out_reset 3 rfl t ?_ d
  by_cases h0 : t.val = 0
  · exact .inl h0
  · exact .inr ⟨h0, (gate_flush_iff _).mpr (by show (t.val - 1) % 2 = 1; omega)⟩

/-- … and at a last tile still holds what the first tile found, the window having been idle there. -/
theorem pdat_before_3_last (c : Dev nD) (t : Fin cfg0.N) (h : t.val % 2 = 1) (d) : (pdat V c).before 3 t d = d := by
  have ht : t.val ≠ 0 := by omega
  rw [(pdat V c).before_of_pos 3 t ht ((cfg0.win 3).fetch_out rfl t) d,
    if_neg (by rw [Bool.not_eq_true]; exact Bool.eq_false_iff.mpr fun hf => by have := (gate_flush_iff _).mp hf; have : (t.val - 1) % 2 = 1 := this; omega)]
  unfold Dat.left
  have hprev : (t.val - 1) % 2 = 0 := by omega
  rw [gate_idle_iff, decide_eq_true (show (⟨t.val - 1, Nat.lt_of_le_of_lt (Nat.sub_le _ _) t.isLt⟩ : Fin cfg0.N).val % 2 = 0 from hprev)]
  exact pdat_before_3_first V c _ hprev d

theorem pdat_before_3 (c : Dev nD) (t : Fin cfg0.N) (d) : (pdat V c).before 3 t d = d := by
  by_cases h : t.val % 2 = 0
  · exact pdat_before_3_first V c t h d
  · exact pdat_before_3_last V c t (by omega) d

end Cert.ReferenceIdeal.Hand

end
-- ==== Proof.RefPoolBody.lean ====
/-
  The pooling region's body obligation: at every grid point, from the invariant, the core's dues and each window's
  current buffer as the pipeline hands it over, the body runs to the invariant of the next point and each buffer at
  what the proof data names — by the two control cases (a first tile, a last tile), which the grid decides.
-/
import proofs.«132724_g2000304347827060_pallasbulk_1236_8_alg».proof.Proof.RefPoolData

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the obligation states of the gate window's buffer after the body: at an idle point that does not write
    back, what the body found; at a live point, the proof data's contents. -/
theorem leavesExact_idle {c : Dev nD} (dat : Dat τ (Elt F) Unit ℕ (UR sig nD τ) ℕ cfg0 c) (w : Fin cfg0.W) (t : Fin cfg0.N)
    (hi : cfg0.idle w (cfg0.grid.coords t) = true) (hf : (cfg0.win w).flush t = false) :
    (dat.leavesExact w t : sProp 𝕄) = iprop(∃ d, owns (c : Thread nD τ) ((cfg0.win w).stage (cfg0.slots t w)) fullShare (dat.before w t d)) := by
  unfold Dat.leavesExact; rw [hi, hf]
theorem leavesExact_live {c : Dev nD} (dat : Dat τ (Elt F) Unit ℕ (UR sig nD τ) ℕ cfg0 c) (w : Fin cfg0.W) (t : Fin cfg0.N)
    (hi : cfg0.idle w (cfg0.grid.coords t) = false) :
    (dat.leavesExact w t : sProp 𝕄) = owns (c : Thread nD τ) ((cfg0.win w).stage (cfg0.slots t w)) fullShare (dat.after w t) := by
  unfold Dat.leavesExact; rw [hi]

/-- What the body is called with at point `t`, the windows one by one, and what it returns. -/
def poolPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d)))
def poolPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ (pdat V c).leavesExact 3 t)

set_option maxHeartbeats 1000000 in
/-- The body at any point. At a first tile the scratch is reset and takes the tile's sums, the gate window is left as
    found; at a last tile the scratch holds the first tile's sums (the invariant says so), takes the second tile's, and
    the gate window is stored whole. -/
theorem pool_body (c : Dev nD) (t : Fin cfg0.N) :
    poolPre V c t ⊢ wp frame (wpE (defs₀ (F := F)) Variants.none c none) Set.univ (bodyAt0 t) (fun _ => poolPost V c t) := by
  unfold poolPre poolPost bodyAt0
  rw [show (pdat V c).owesAt () t.succ = (pdat V c).owesAt () t.castSucc from rfl,
    pdat_after_0, pdat_after_1, pdat_after_2, pdat_Φ, pdat_Φ]
  unfold poolInv
  by_cases h : t.val % 2 = 0
  · have hA := (firstTile_iff t).mpr h
    have hB : ¬ lastTile (grid0.coords t) := fun hb => by have := (lastTile_iff t).mp hb; omega
    rw [leavesExact_idle (pdat V c) 3 t (by rw [gate_idle_iff]; exact decide_eq_true h)
      (Bool.eq_false_iff.mpr fun hf => by have := (gate_flush_iff t).mp hf; omega)]
    simp only [pdat_before_0, pdat_before_1, pdat_before_2, pdat_before_3]
    iintro ⟨⟨⟨%X, -, Hs⟩, Hrest, Hp⟩, Ho, ⟨%d0, H0⟩, ⟨%d1, H1⟩, ⟨%d2, H2⟩, ⟨%d3, H3⟩⟩
    iapply (pool_first_run c Set.univ (grid0.coords t) hA hB _ _ _ _ _ _ _ _ _ _ (pblk V c 0 t) _)
    isplitl [H0]; · iexact H0
    isplitl [Hs]; · iexists _; iexact Hs
    iintro ⟨H0, Hs⟩
    isplitl [Hs Hrest Hp]
    · isplitl [Hs]
      · iexists _; isplitr
        swap; · iexact Hs
        ipureintro; intro _
        exact ((accAt_congr V c (by simp) _ _).trans (accAt_first V c t h)).symm
      isplitl [Hrest]; · iexact Hrest
      iexact Hp
    isplitl [Ho]; · iexact Ho
    isplitl [H0]; · iexact H0
    isplitl [H1]; · iexact H1
    isplitl [H2]; · iexact H2
    iexists d3; iexact H3
  · have h1 : t.val % 2 = 1 := by omega
    have hA : ¬ firstTile (grid0.coords t) := fun ha => h ((firstTile_iff t).mp ha)
    have hB := (lastTile_iff t).mpr h1
    rw [leavesExact_live (pdat V c) 3 t (by rw [gate_idle_iff]; exact decide_eq_false h), pdat_after_3]
    simp only [pdat_before_0, pdat_before_1, pdat_before_2, pdat_before_3]
    iintro ⟨⟨⟨%X, %hX, Hs⟩, Hrest, Hp⟩, Ho, ⟨%d0, H0⟩, ⟨%d1, H1⟩, ⟨%d2, H2⟩, ⟨%d3, H3⟩⟩
    have hX' : X = accAt V c (t.val - 1) (Nat.lt_of_le_of_lt (Nat.sub_le _ _) t.isLt) := hX h1
    subst hX'
    rw [accAt_last V c t h1]
    iapply (pool_last_run c Set.univ (grid0.coords t) hA hB _ _ _ _ _ _ _ _ _ _ (pblk V c 0 t) (pblk V c 1 t) (pblk V c 2 t) _ _)
    isplitl [H0]; · iexact H0
    isplitl [H1]; · iexact H1
    isplitl [H2]; · iexact H2
    isplitl [H3]; · iexists _; iexact H3
    isplitl [Hs]; · iexact Hs
    iintro ⟨H0, H1, H2, H3, Hs⟩
    isplitl [Hs Hrest Hp]
    · isplitl [Hs]
      · iexists _; isplitr
        swap; · iexact Hs
        ipureintro; intro hodd
        exact absurd hodd (by simp only [Fin.val_succ]; omega)
      isplitl [Hrest]; · iexact Hrest
      iexact Hp
    isplitl [Ho]; · iexact Ho
    isplitl [H0]; · iexact H0
    isplitl [H1]; · iexact H1
    isplitl [H2]; · iexact H2
    iexact H3

/-- The pipeline library's body obligation, at every point. -/
theorem pool_obligation (c : Dev nD) : BodyObligation (pdat (F := F) V c) (defs₀ (F := F)) Variants.none () Set.univ := fun t => by
  rw [bigSep_W0, bigSep_W0]
  exact pool_body V c t

end Cert.ReferenceIdeal.Hand

end
-- ==== Proof.RefScale.lean ====
/-
  The rescaling region of the reference (its second pallas_call) at the contents `V` the region is entered
  with: grid point `t` is a sample and one of the two tiles of 2048 positions; the body loads the tile
  `[1, 512, 2048]` of the reshaped activations and the sample's gate column `[1, 512, 1]`, and stores their
  product, the column broadcast along the positions, over the whole output tile.  Stated here: each window's
  block at a point, what the body leaves in the output tile, the body's triple, the proof data of the pipeline
  and its obligation at every point.
-/
import proofs.«132724_g2000304347827060_pallasbulk_1236_8_alg».proof.Proof.Gen.ReferenceIdeal.Launch
import proofs.«132724_g2000304347827060_pallasbulk_1236_8_alg».proof.Proof.Gen.ReferenceIdeal.Skeleton
import proofs.«132724_g2000304347827060_pallasbulk_1236_8_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def sblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the tile
    window is fetched at every point, the gate column's block index only moves with the sample. -/
theorem sbefore_0_of {c : Dev nD} (dat : Dat τ (Elt F) Unit ℕ (UR sig nD τ) ℕ cfg1 c) (hA : dat.A 0 = V c (Pipeline.arrRef spec1 0))
    (hafter : ∀ t, dat.after 0 t = sblk V c 0 t) (t : Fin cfg1.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)
theorem sbefore_1_of {c : Dev nD} (dat : Dat τ (Elt F) Unit ℕ (UR sig nD τ) ℕ cfg1 c) (hA : dat.A 1 = V c (Pipeline.arrRef spec1 1))
    (hafter : ∀ t, dat.after 1 t = sblk V c 1 t) (t : Fin cfg1.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)

/-- The whole tile and the whole gate column, as the body's accesses name them. -/
abbrev rTile : Rect S1x512x2048 := Rect.unit (s := S1x512x2048) ![0, 0, 0] S1x512x2048.size inb_S1x512x2048_S1x512x2048_0_0_0
abbrev rCol : Rect S1x512x1 := Rect.unit (s := S1x512x1) ![0, 0, 0] S1x512x1.size inb_S1x512x1_S1x512x1_0_0_0

/-- What the body leaves in the output tile: its one store, of the product, over the whole tile. -/
def scaled (x0 : Vec F S1x512x2048 .f32) (x1 : Vec F S1x512x1 .f32) : Vec F S1x512x2048 .f32 :=
  View.canon [⟨rTile, k1_pay1 (View.ld x0 rTile) (View.ld x1 rCol)⟩]

theorem scaled_cover (p0 : Vec F S1x512x2048 .f32) (y : S1x512x2048.Idx) :
    ∃ pc ∈ ([⟨rTile, p0⟩] : List (View.Piece (Elt F) S1x512x2048 .f32)), y ∈ pc.1.set :=
  View.cover_of_tiled [⟨rTile, p0⟩] S1x512x2048.size (by rfl) y

set_option maxHeartbeats 1000000 in
/-- The body on whole staging memrefs, the inputs' at contents `x0`, `x1` and the output's at anything, runs to the
    continuation holding the inputs' as they were and the output's at `scaled x0 x1`. -/
theorem scale_kernel_run (c : Dev nD) (E : Set ℕ) (i : grid1.Coords) (arg2 : Memref sig .tc .vmem S1x512x2048 .f32) (harg2 : arg2.IsWhole)
    (arg3 : Memref sig .tc .vmem S1x512x1 .f32) (harg3 : arg3.IsWhole) (arg4 : Memref sig .tc .vmem S1x512x2048 .f32) (harg4 : arg4.IsWhole)
    (x0 : Vec F S1x512x2048 .f32) (x1 : Vec F S1x512x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (scaled x0 x1)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled_cover _)

/-- The proof data of the rescaling pipeline on core `c`: the arrays as the region finds them; after the body at
    point `t` each input's buffer at its block and the output's at the product of the two blocks; the invariant
    the scoped buffers no window stages and the generator register, untouched; nothing owed; full shares. -/
def sdat (c : Dev nD) : Dat τ (Elt F) Unit ℕ (UR sig nD τ) ℕ cfg1 c where
  A w := V c (Pipeline.arrRef spec1 w)
  after w t := match w with
    | ⟨0, _⟩ => sblk V c 0 t
    | ⟨1, _⟩ => sblk V c 1 t
    | ⟨2, _⟩ => scaled (sblk V c 0 t) (sblk V c 1 t)
  Φ _ := Pipeline.ΦA spec1 c
  q _ := fullShare
  owed _ := 0

theorem sdat_A (c : Dev nD) (w : Fin cfg1.W) : (sdat V c).A w = V c (Pipeline.arrRef spec1 w) := by
  dsimp only [sdat]
theorem sdat_after_0 (c : Dev nD) (t : Fin cfg1.N) : (sdat V c).after 0 t = sblk V c 0 t := by dsimp only [sdat]
theorem sdat_after_1 (c : Dev nD) (t : Fin cfg1.N) : (sdat V c).after 1 t = sblk V c 1 t := by dsimp only [sdat]
theorem sdat_after_2 (c : Dev nD) (t : Fin cfg1.N) : (sdat V c).after 2 t = scaled (sblk V c 0 t) (sblk V c 1 t) := by dsimp only [sdat]
theorem sdat_before_0 (c : Dev nD) (t : Fin cfg1.N) (d) : (sdat V c).before 0 t d = sblk V c 0 t :=
  sbefore_0_of V (sdat V c) (sdat_A V c 0) (sdat_after_0 V c) t d
theorem sdat_before_1 (c : Dev nD) (t : Fin cfg1.N) (d) : (sdat V c).before 1 t d = sblk V c 1 t :=
  sbefore_1_of V (sdat V c) (sdat_A V c 1) (sdat_after_1 V c) t d

/-- What the body is called with at point `t`, the windows one by one, and what it returns. -/
def scalePre (c : Dev nD) (t : Fin cfg1.N) : sProp 𝕄 :=
  iprop((sdat V c).Φ t.castSucc ∗ (sdat V c).owesAt () t.castSucc
    ∗ (∃ d, owns (c : Thread nD τ) (st1_0 t) fullShare ((sdat V c).before 0 t d))
    ∗ (∃ d, owns (c : Thread nD τ) (st1_1 t) fullShare ((sdat V c).before 1 t d))
    ∗ (∃ d, owns (c : Thread nD τ) (st1_2 t) fullShare ((sdat V c).before 2 t d)))
def scalePost (c : Dev nD) (t : Fin cfg1.N) : sProp 𝕄 :=
  iprop((sdat V c).Φ t.succ ∗ (sdat V c).owesAt () t.succ
    ∗ owns (c : Thread nD τ) (st1_0 t) fullShare ((sdat V c).after 0 t)
    ∗ owns (c : Thread nD τ) (st1_1 t) fullShare ((sdat V c).after 1 t)
    ∗ owns (c : Thread nD τ) (st1_2 t) fullShare ((sdat V c).after 2 t))

/-- The body at any point: the inputs' memrefs hold their blocks, so the body's triple applies; the invariant and
    the core's dues pass through unread. -/
theorem scale_body (c : Dev nD) (t : Fin cfg1.N) :
    scalePre V c t ⊢ wp frame (wpE (defs₀ (F := F)) Variants.none c none) Set.univ (bodyAt1 t) (fun _ => scalePost V c t) := by
  unfold scalePre scalePost bodyAt1
  simp only [sdat_before_0, sdat_before_1]
  rw [show (sdat V c).Φ t.succ = (sdat V c).Φ t.castSucc from rfl,
    show (sdat V c).owesAt () t.succ = (sdat V c).owesAt () t.castSucc from rfl,
    sdat_after_0, sdat_after_1, sdat_after_2]
  iintro ⟨HΦ, Ho, ⟨%d0, H0⟩, ⟨%d1, H1⟩, ⟨%d2, H2⟩⟩
  iapply (scale_kernel_run c Set.univ (grid1.coords t) _ _ _ _ _ _ (sblk V c 0 t) (sblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem scale_obligation (c : Dev nD) : BodyObligation (sdat (F := F) V c) (defs₀ (F := F)) Variants.none () Set.univ := fun t => by
  rw [bigSep_W1, bigSep_W1]
  exact scale_body V c t

end Cert.ReferenceIdeal.Hand

end
-- ==== Proof.RefRun.lean ====
/-
  The reference's run: @main is a reshape, the pooling region, the rescaling region and a reshape back.  The
  contents of the core's unscoped buffers are followed from the launch through the four items — a host stretch
  applies its operations, a region leaves each of its arrays at what its write-backs leave and every other buffer
  as entered — and every weakly fair execution is shown to terminate with every unscoped buffer at the last of
  these contents.  The two regions enter the launch as segment records over the thread state "every unscoped
  buffer at the boundary's contents, the generator register at some state, nothing owed"; the pooling region's
  invariant takes its scratch column out of the scoped buffers at entry and gives it back at exit.
-/
import proofs.«132724_g2000304347827060_pallasbulk_1236_8_alg».proof.Proof.RefPoolBody
import proofs.«132724_g2000304347827060_pallasbulk_1236_8_alg».proof.Proof.RefScale

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the reshape of the activations (the pooling region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the pooling region's exit: its arrays at what its write-backs leave, every other buffer as entered. -/
def W2 (c : Dev nD) : Valuation τ sig (Elt F) :=
  Pipeline.withArrays spec0 c (W1 m c) fun w => (pdat (V1 m) c).arrAt w cfg0.N
theorem W2_arr (c : Dev nD) (w : Fin cfg0.W) :
    W2 m c (Proc.devRef .tc (Pipeline.arrRef spec0 w)) = (pdat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0_arr (c : Dev nD) (w : Fin cfg0.W) : (pdat (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the rescaling region's exit. -/
def W3 (c : Dev nD) : Valuation τ sig (Elt F) :=
  Pipeline.withArrays spec1 c (W2 m c) fun w => (sdat (V2 m) c).arrAt w cfg1.N
theorem W3_arr (c : Dev nD) (w : Fin cfg1.W) :
    W3 m c (Proc.devRef .tc (Pipeline.arrRef spec1 w)) = (sdat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exit1_arr (c : Dev nD) (w : Fin cfg1.W) : (sdat (V2 m) c).arrAt w cfg1.N = V3 m c (Pipeline.arrRef spec1 w) :=
  (W3_arr m c w).symm
theorem exit1_rest (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the reshape back: the end. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => pdat (V1 m) c
  | ⟨1, _⟩ => fun c => sdat (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem reshape_in_fresh : (hostOps0 : List (HloOp τ sig (Elt F))).Forall fun op => op.fresh = ∅ := by
  simp only [List.Forall]; repeat' constructor
theorem reshape_out_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tend (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The pooling region: entered from every unscoped buffer at `W1`, left at `W2`. Its arrays are split out of the
    unscoped buffers and put back at the exit contents; the generator register and — out of the scoped buffers no
    window stages — the scratch column go into the invariant and come back. -/
def regPool : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (pool_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = poolInv (V1 m) c 0 from rfl,
      show (Pipeline.scopedRest (Pipeline.pin (pcfgs (F := F)) adm 0).spec c : sProp 𝕄) = _ from
        scopedRest0_eq (Ix := Unit) (Val := Elt F) (Name := ℕ) (U := UR sig nD τ) (Lvl := ℕ) c]
    unfold poolInv otherScoped
    iintro ⟨Hp, -, ⟨%f, Hs⟩, Hr⟩
    isplitl [Hs]
    · iexists f; isplitr
      · ipureintro; intro h; exact absurd h (by decide)
      rw [owns_whole]; iexact Hs
    isplitl [Hr]; · iexact Hr
    iexact Hp
  hout c := by
    rw [Pipeline.ownSems0_none, show (pdats m 0 c).Φ (Fin.last _) = poolInv (V1 m) c (Fin.last _) from rfl,
      show (Pipeline.scopedRest (Pipeline.pin (pcfgs (F := F)) adm 0).spec c : sProp 𝕄) = _ from
        scopedRest0_eq (Ix := Unit) (Val := Elt F) (Name := ℕ) (U := UR sig nD τ) (Lvl := ℕ) c]
    unfold poolInv otherScoped
    simp only [owns_whole]
    iintro ⟨⟨%X, -, Hs⟩, Hr, Hp⟩
    isplitl [Hp]; · iexact Hp
    isplitr; · iempintro
    isplitl [Hs]
    · iexists X; iexact Hs
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The rescaling region: entered from every unscoped buffer at `W2`, left at `W3`; its invariant is the scoped
    buffers no window stages and the generator register, untouched. -/
def regScale : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (scale_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch ends the chain: its post is the last thread state beside the core owing nothing. -/
abbrev segs : List (Pipeline.Seg (pcfgs (F := F)) adm (pdats m) () defs₀ 𝒱₀ L lv) :=
  [ .host (hseg hostOps0 hostOps0_sub reshape_in_fresh (W0 m)),
    .region (regPool m),
    .region (regScale m),
    .host (hseg hostOps2 hostOps2_sub reshape_out_fresh (W3 m)) ]
theorem main_is_segs (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds every unscoped buffer of every core at the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun c => show iprop(StableHlo.held (c : Thread nD τ) (Pipeline.ucRefs τ sig) (W4 m c) ∗ R c)
        ⊢ iprop(Tend m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.ReferenceIdeal.Hand

end
-- ==== Proof.HostReshape.lean ====
/-
  The reference's two host reshapes, read at an index, from any contents of the buffers.

  Before its regions the reference views the activations `[16, 512, 64, 64]` as `[16, 512, 4096]`, and after them it
  views the result `[16, 512, 4096]` as `[16, 512, 64, 64]`. A reshape keeps row-major positions, so flattened position
  `s` of a channel is position `(s / 64, s % 64)`, and position `(h, w)` is flattened position `64 h + w`. Each
  reshape writes its own result buffer and no other.
-/
import proofs.«132724_g2000304347827060_pallasbulk_1236_8_alg».proof.Proof.Gen.ReferenceIdeal.Launch
import proofs.«132724_g2000304347827060_pallasbulk_1236_8_alg».proof.Proof.Spec
import Idealize.ShloMosaic.Lib.StableHlo.Run
import Idealize.ShloMosaic.Lib.Pipeline.Value
import Idealize.ShloMosaic.Lib.ValueIdx

noncomputable section

namespace Cert.RefHost

open Idealize.ShloMosaic Idealize.ShloMosaic.ValueIdx Idealize.SL.Sem
open Cert.ReferenceIdeal Cert.ReferenceIdeal.Gen

variable (Wv : Valuation τ sig (Elt Ideal))

/-- The reshape before the regions leaves the activations viewed `[16, 512, 4096]`. -/
theorem reshape_in_eq :
    (StableHlo.after (hostOps0 (F := Ideal)) Wv (Proc.devRef .tc main_v0) : S16x512x4096.Idx → EReal)
      = shapeCast S16x512x4096 (Wv (Proc.devRef .tc main_arg0) : S16x512x64x64.Idx → EReal) shapeCasts_S16x512x64x64_S16x512x4096 := by
  after_results
  rfl

/-- Read at an index: flattened position `s` of a channel is position `(s / 64, s % 64)`. -/
theorem reshape_in_apply (n : Fin 16) (ch : Fin 512) (s : Fin 4096) :
    StableHlo.after (hostOps0 (F := Ideal)) Wv (Proc.devRef .tc main_v0) (ix3 n ch s)
      = Wv (Proc.devRef .tc main_arg0) (ix4 n ch (Cert.SE.hPos s) (Cert.SE.wPos s)) := by
  rw [reshape_in_eq]
  exact shapeCast_apply _ _ (ix3 n ch s) (ix4 n ch (Cert.SE.hPos s) (Cert.SE.wPos s)) (by
    rw [Shape.rowMajor_val_four, Shape.rowMajor_val_three]
    show ((n.val * 512 + ch.val) * 64 + s.val / 64) * 64 + s.val % 64 = (n.val * 512 + ch.val) * 4096 + s.val
    omega)

/-- The reshape after the regions leaves the result viewed `[16, 512, 64, 64]`. -/
theorem reshape_out_eq :
    (StableHlo.after (hostOps2 (F := Ideal)) Wv (Proc.devRef .tc main_v3) : S16x512x64x64.Idx → EReal)
      = shapeCast S16x512x64x64 (Wv (Proc.devRef .tc main_v2) : S16x512x4096.Idx → EReal) shapeCasts_S16x512x4096_S16x512x64x64 := by
  after_results
  rfl

/-- Read at an index: position `(h, w)` of a channel is flattened position `64 h + w`. -/
theorem reshape_out_apply (n : Fin 16) (ch : Fin 512) (h w : Fin 64) :
    StableHlo.after (hostOps2 (F := Ideal)) Wv (Proc.devRef .tc main_v3) (ix4 n ch h w)
      = Wv (Proc.devRef .tc main_v2) (ix3 n ch ⟨h.val * 64 + w.val, by omega⟩) := by
  rw [reshape_out_eq]
  exact shapeCast_apply _ _ (ix4 n ch h w) (ix3 n ch (⟨h.val * 64 + w.val, by omega⟩ : Fin 4096)) (by
    rw [Shape.rowMajor_val_four, Shape.rowMajor_val_three]
    show (n.val * 512 + ch.val) * 4096 + (h.val * 64 + w.val) = ((n.val * 512 + ch.val) * 64 + h.val) * 64 + w.val
    omega)

/-- The first reshape writes only its own result buffer. -/
theorem reshape_in_keeps (b : Ref sig .tc) (hb : b ≠ main_v0) :
    StableHlo.after (hostOps0 (F := Ideal)) Wv (Proc.devRef .tc b) = Wv (Proc.devRef .tc b) :=
  StableHlo.after_of_forall_not_mem _ _ fun op hop => by
    simp only [List.mem_cons, List.mem_nil_iff, or_false] at hop
    subst hop
    rw [StableHlo.reshape_writes, Finset.mem_singleton]
    exact StableHlo.devRef_ne_of_ne hb

/-- The last reshape writes only its own result buffer. -/
theorem reshape_out_keeps (b : Ref sig .tc) (hb : b ≠ main_v3) :
    StableHlo.after (hostOps2 (F := Ideal)) Wv (Proc.devRef .tc b) = Wv (Proc.devRef .tc b) :=
  StableHlo.after_of_forall_not_mem _ _ fun op hop => by
    simp only [List.mem_cons, List.mem_nil_iff, or_false] at hop
    subst hop
    rw [StableHlo.reshape_writes, Finset.mem_singleton]
    exact StableHlo.devRef_ne_of_ne hb

end Cert.RefHost

end
-- ==== Proof.PayLayout.lean ====
/-
  Layout operations and contractions read at an index, in the forms a column-shaped ([a, 1]) value meets:
  a vector cast to a column reads its entry; a column of a [1, a, 1] block broadcast along the last axis reads
  the column's entry at every position; the sum of a matrix over its second axis at a row is the sum of the row's
  entries; and a plain matrix product into the zero accumulator, at row `r` and column `q`, is the sum over
  the contracted coordinate `k` of (entry (r, k) of the left factor) × (entry (k, q) of the right factor).
  All at the exact (extended-real) reading of the float operations.
-/
import Idealize.ShloMosaic.Lib.ValueIdx
import Idealize.ShloMosaic.Lib.Pipeline.Value
import Idealize.ShloMosaic.Lib.ValueLayout
import Idealize.ShloMosaic.PureOps.Ideal.Laws

noncomputable section

namespace Cert.RefPay

open Idealize.ShloMosaic Idealize.ShloMosaic.ValueIdx

section Layout
variable {α : Type}

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a, 1]` array broadcast to `[1, a, b]` reads, at `(u, i, j)`, the operand's entry `(0, i, 0)`. -/
theorem broadcastTo_1a1_1ab_apply {a b : ℕ} (v : (⟨3, ![1, a, 1]⟩ : Shape).Idx → α)
    (h : (⟨3, ![1, a, 1]⟩ : Shape).Broadcasts ⟨3, ![1, a, b]⟩) (u : Fin 1) (i : Fin a) (j : Fin b) :
    broadcastTo ⟨3, ![1, a, b]⟩ v h (ix3 u i j) = v (ix3 (0 : Fin 1) i (0 : Fin 1)) := by
  refine broadcastTo_apply v h (ix3 u i j) (ix3 (0 : Fin 1) i (0 : Fin 1)) fun ax => ?_
  match ax with
  | ⟨0, _⟩ => rfl
  | ⟨1, _⟩ =>
    show i.val = if a = 1 then 0 else i.val
    split
    · have := i.isLt; omega
    · rfl
  | ⟨2, _⟩ => rfl

end Layout

/-- The sum of an `[a, b]` matrix over its second axis, at row `i`, is the sum of that row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

/-- A plain `[m, k] × [k, n]` matrix product into the zero accumulator, at `(r, q)`: the sum over the contracted
    coordinate of the products of the entries. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (q : Fin n) :
    matmul (⟨[1], [0], [0], [1], [], [], w⟩ : DotDims _ _ _) prec A B
        (constant (F := Ideal) ⟨2, ![m, n]⟩ .f32 0x00000000#32) (ix2 r q)
      = ∑ c : Fin k, A (ix2 r c) * B (ix2 c q) := by
  refine (Ideal.matmul_constant_zero_apply _ prec A B (ix2 r q)).trans ?_
  rw [← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 r q)
      ((contrEquiv1 _ k rfl rfl).symm c) = ix2 r c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r q)
      ((contrEquiv1 _ k rfl rfl).symm c) = ix2 c q := by
    funext ax; apply Fin.ext
    match ax with
    | ⟨0, _⟩ => simp [DotDims.rhsIdx]; exact c2
    | ⟨1, _⟩ => simp [DotDims.rhsIdx]; rfl
  rw [l2, r2]

end Cert.RefPay

end
-- ==== Proof.PayPool.lean ====
/-
  The reference's pooling pass and scaling pass, one stored value at a time, read at an index at the exact
  (extended-real) reading of the float operations.

  The pooling pass keeps one running sum per channel in a [512, 1] column.  At the first tile of a sample the
  column is set to zero; at every tile the column's entry for channel `c` grows by the sum of the tile's 2048
  positions of that channel.  The scaling pass multiplies every position of channel `c` of a tile by the
  channel's gate, the entry `(0, c, 0)` of a [1, 512, 1] block.
-/
import proofs.«132724_g2000304347827060_pallasbulk_1236_8_alg».proof.Proof.Gen.ReferenceIdeal.Skeleton
import proofs.«132724_g2000304347827060_pallasbulk_1236_8_alg».proof.Proof.PayLayout

noncomputable section

namespace Cert.RefPay

open Cert.ReferenceIdeal Cert.ReferenceIdeal.Gen Idealize.ShloMosaic Idealize.ShloMosaic.ValueIdx

/-- The column the first tile stores is zero at every channel. -/
theorem pay1_apply (c : Fin 512) : k0_pay1 (F := Ideal) (ix2 c (0 : Fin 1)) = 0 := by
  unfold k0_pay1
  rw [shapeCast_self]
  exact Ideal.ofBits_zero_f32

/-- The column a tile stores: at channel `c`, the column's entry before it plus the sum of the tile's 2048
    positions of that channel. -/
theorem pay2_apply (v3 : Vec Ideal S1x512x2048 .f32) (v5 : Vec Ideal S512x1 .f32) (c : Fin 512) :
    k0_pay2 v3 v5 (ix2 c (0 : Fin 1)) = v5 (ix2 c 0) + ∑ s : Fin 2048, v3 (ix3 (0 : Fin 1) c s) := by
  unfold k0_pay2
  rw [shapeCast_self, addf_apply]
  congr 1
  refine (shapeCast_a_a1_apply _ _ c 0).trans ?_
  refine (rowSum_apply _ _ _ _ c).trans ?_
  exact Finset.sum_congr rfl fun s _ => shapeCast_1ab_ab_apply v3 _ c s

/-- The tile the scaling pass stores: position `s` of channel `c` times the channel's gate. -/
theorem pay_scale_apply (v0 : Vec Ideal S1x512x2048 .f32) (v2 : Vec Ideal S1x512x1 .f32) (c : Fin 512)
    (s : Fin 2048) :
    k1_pay1 v0 v2 (ix3 (0 : Fin 1) c s) = v0 (ix3 0 c s) * v2 (ix3 0 c 0) := by
  unfold k1_pay1
  rw [shapeCast_self, shapeCast_self, mulf_apply]
  congr 1
  exact broadcastTo_1a1_1ab_apply v2 _ 0 c s

end Cert.RefPay

end
-- ==== Proof.ArrScale.lean ====
/-
  The rescaling region of the reference, from blocks to the array.  Grid point `t` is sample `t / 2` and tile
  `t % 2` of 2048 positions; the output window's block at `t` is written back at every point, and the 32 blocks
  tile the `[16, 512, 4096]` output.  What point `t` writes back is the tile of the reshaped activations times the
  sample's gate column broadcast along the positions, so the array ends holding, at (n, ch, s), the activation
  there times the gate at (n, ch, 0).
-/
import proofs.«132724_g2000304347827060_pallasbulk_1236_8_alg».proof.Proof.RefScale
import proofs.«132724_g2000304347827060_pallasbulk_1236_8_alg».proof.Proof.PayPool
import Idealize.ShloMosaic.Lib.Pipeline.Value

set_option maxRecDepth 16384

noncomputable section

namespace Cert.RefArr

open Cert.ReferenceIdeal Cert.ReferenceIdeal.Gen Cert.ReferenceIdeal.Hand Cert.RefPay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Zero offsets on three axes, however spelt. -/
theorem hz3 : (![0, 0, 0] : Fin 3 → ℕ) = fun _ => 0 := by funext a; fin_cases a <;> rfl

/-- The three windows' block indices at point `t`, decided over the grid: the sample is `t / 2` and the tile `t % 2`;
    the activations' and the output's blocks move with both, the gate column's with the sample only. -/
theorem sidx : ∀ t : Fin cfg1.N,
    win1_0.index t (0 : Fin 3) = t.val / 2 ∧ win1_0.index t (1 : Fin 3) = 0 ∧ win1_0.index t (2 : Fin 3) = t.val % 2
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = t.val % 2 :=
  (by decide +kernel : ∀ t : Fin grid1.N, _)

/-- The gate column's entry an output element is scaled by: same sample, same channel, position 0. -/
def gateIdx (i : S16x512x4096.Idx) : S16x512x1.Idx :=
  ix3 (⟨(i 0).val, (i 0).isLt⟩ : Fin 16) (⟨(i 1).val, (i 1).isLt⟩ : Fin 512) (0 : Fin 1)

/-- The reshaped activations `[16, 512, 4096]` and the gates `[16, 512, 1]` as the region finds them. -/
abbrev actsAt (c : Dev nD) : S16x512x4096.Idx → EReal := V c main_v0
abbrev gatesAt (c : Dev nD) : S16x512x1.Idx → EReal := V c main_v1

/-- The whole output array: every element of the activations times its sample's and channel's gate. -/
def scaledAll (c : Dev nD) : S16x512x4096.Idx → EReal :=
  fun i => actsAt V c i * gatesAt V c (gateIdx i)

/-- What point `t` writes back is block `t` of `scaledAll`: the tile's element `(0, ch, s)` sits in the array at
    (sample, `ch`, tile × 2048 + `s`), and the gate column's element `(0, ch, 0)` at (sample, `ch`, 0). -/
theorem scale_flushed (c : Dev nD) (t : Fin cfg1.N) :
    (sdat V c).flushed 2 t = ((cfg1.win 2).blk t).view.read (Elt Ideal) (scaledAll V c) := by
  show (cfg1.win 2).cut (grid1.coords t) ((sdat V c).after 2 t) = _
  rw [sdat_after_2]
  unfold scaled
  rw [View.canon_unit_zero hz3]
  simp only [View.ld_unit_zero (S := S1x512x2048) hz3, View.ld_unit_zero (S := S1x512x1) hz3]
  obtain ⟨a0, a1, a2, b0, b1, b2, c0, c1, c2⟩ := sidx t
  funext j
  obtain ⟨u, ch, s, rfl⟩ : ∃ (u : Fin 1) (ch : Fin 512) (s : Fin 2048), j = ix3 u ch s := ⟨j 0, j 1, j 2, eq_ix3 j⟩
  obtain rfl : u = 0 := Subsingleton.elim _ _
  show k1_pay1 (sblk V c 0 t) (sblk V c 1 t) (ix3 0 ch s) = scaledAll V c (((cfg1.win 2).blk t).view.emb (ix3 0 ch s))
  rw [pay_scale_apply]
  unfold scaledAll
  have e0 : sblk V c 0 t (ix3 0 ch s) = actsAt V c (((cfg1.win 2).blk t).view.emb (ix3 0 ch s)) := by
    rfl
  have e1 : sblk V c 1 t (ix3 0 ch 0) = gatesAt V c (gateIdx (((cfg1.win 2).blk t).view.emb (ix3 0 ch s))) := by
    show gatesAt V c (((cfg1.win 1).blk t).view.emb (ix3 0 ch 0)) = _
    congr 1
    funext a; apply Fin.ext
    match a with
    | ⟨0, _⟩ => show win1_1.index t (0 : Fin 3) * 1 + 1 * 0 = win1_2.index t (0 : Fin 3) * 1 + 1 * 0; omega
    | ⟨1, _⟩ => show win1_1.index t (1 : Fin 3) * 512 + 1 * ch.val = win1_2.index t (1 : Fin 3) * 512 + 1 * ch.val; omega
    | ⟨2, _⟩ => show win1_1.index t (2 : Fin 3) * 1 + 1 * 0 = 0; omega
  rw [e0, e1]

/-- An index of the output array is in point `t`'s block iff each coordinate is in the block's range on its axis. -/
theorem scale_mem_blk (t : Fin cfg1.N) (i : S16x512x4096.Idx) :
    i ∈ ((cfg1.win 2).blk t).view.set ↔ ∀ a : Fin 3, win1_2.index t a * S1x512x2048.size a ≤ (i a).val
      ∧ (i a).val < win1_2.index t a * S1x512x2048.size a + S1x512x2048.size a := by
  show i ∈ ((View.whole main_v2).slice (win1_2.rect t)).set ↔ _
  rw [View.set_slice_whole, Rect.mem_set_unit]
  exact Iff.rfl

/-- Every element of the output array is in the block of the point of its sample and its position's tile. -/
theorem scale_cover (i : S16x512x4096.Idx) :
    ∃ t : Fin cfg1.N, (cfg1.win 2).flush t = true ∧ i ∈ ((cfg1.win 2).blk t).view.set := by
  have h0 : (i 0).val < 16 := (i 0).isLt
  have h1 : (i 1).val < 512 := (i 1).isLt
  have h2 : (i 2).val < 4096 := (i 2).isLt
  have hN : cfg1.N = 32 := rfl
  let t : Fin cfg1.N := ⟨2 * (i 0).val + (i 2).val / 2048, by rw [hN]; omega⟩
  obtain ⟨a0, a1, a2, b0, b1, b2, c0, c1, c2⟩ := sidx t
  have tv : t.val = 2 * (i 0).val + (i 2).val / 2048 := rfl
  refine ⟨t, flush1_2 t, ?_⟩
  rw [scale_mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 2048 ≤ (i 2).val ∧ (i 2).val < win1_2.index t (2 : Fin 3) * 2048 + 2048; omega

/-- So the output array ends holding `scaledAll`. -/
theorem scale_array (c : Dev nD) : (sdat V c).arrAt 2 cfg1.N = scaledAll V c :=
  (sdat V c).arrAt_eq_of_cover 2 (scaledAll V c) (fun t _ => scale_flushed V c t) scale_cover

/-- The output array after the region, at sample `n`, channel `ch`, position `s`. -/
theorem scale_final (c : Dev nD) (n : Fin 16) (ch : Fin 512) (s : Fin 4096) :
    (sdat V c).arrAt 2 cfg1.N (ix3 n ch s) = actsAt V c (ix3 n ch s) * gatesAt V c (ix3 n ch (0 : Fin 1)) := by
  rw [scale_array]
  rfl

end Cert.RefArr

end
-- ==== Proof.PayGate.lean ====
/-
  The gate the reference's pooling pass stores at the last tile of a sample, read at a channel at the exact
  (extended-real) reading of the float operations.

  From the column of channel sums the pass forms the channel means (each sum times the float 1/4096), contracts
  them with each of the 32 rows of the encoder weight and clamps below at zero (the hidden values), contracts the
  hidden values with row `c` of the decoder weight (the logit of channel `c`), and stores
  `1 / (1 + e^(0 - logit))`.  In both contractions the weight is the left factor.
-/
import proofs.«132724_g2000304347827060_pallasbulk_1236_8_alg».proof.Proof.Gen.ReferenceIdeal.Skeleton
import proofs.«132724_g2000304347827060_pallasbulk_1236_8_alg».proof.Proof.Spec
import proofs.«132724_g2000304347827060_pallasbulk_1236_8_alg».proof.Proof.PayLayout

noncomputable section

namespace Cert.RefPay

open Cert.ReferenceIdeal Cert.ReferenceIdeal.Gen Idealize.ShloMosaic Idealize.ShloMosaic.ValueIdx Cert.SE

/-- The gate stored for channel `c`, from the column of channel sums `v15`, the encoder weight `v18` and the
    decoder weight `v22`. -/
theorem pay3_apply (v15 : Vec Ideal S512x1 .f32) (v18 : Vec Ideal S32x512 .f32) (v22 : Vec Ideal S512x32 .f32)
    (c : Fin 512) :
    k0_pay3 v15 v18 v22 (ix3 (0 : Fin 1) c (0 : Fin 1))
      = Ideal.div one (one + Ideal.exp (0 - ∑ j : Fin 32, v22 (ix2 c j)
          * max (∑ c' : Fin 512, v18 (ix2 j c') * (v15 (ix2 c' 0) * invS)) 0)) := by
  unfold k0_pay3
  refine (shapeCast_ab_1ab_apply _ _ 0 c 0).trans ?_
  -- the decoder's contraction at channel `c`, and the encoder's at hidden unit `j`
  have hdec : ∀ V : FVec Ideal S32x1 .f32,
      matmul (φ₁ := .f32) (φ₂ := .f32) dot_S512x32_S32x1_S512x1_1_0_0_1_n_n none v22 V (constant (F := Ideal) S512x1 .f32 0x00000000#32)
          (ix2 c (0 : Fin 1))
        = ∑ j : Fin 32, v22 (ix2 c j) * V (ix2 j (0 : Fin 1)) :=
    fun V => matmul_plain_zero_apply (φ₁ := .f32) (φ₂ := .f32) dot_S512x32_S32x1_S512x1_1_0_0_1_n_n_wf none v22 V c 0
  have henc : ∀ (V : FVec Ideal S512x1 .f32) (j : Fin 32),
      matmul (φ₁ := .f32) (φ₂ := .f32) dot_S32x512_S512x1_S32x1_1_0_0_1_n_n none v18 V (constant (F := Ideal) S32x1 .f32 0x00000000#32)
          (ix2 j (0 : Fin 1))
        = ∑ c' : Fin 512, v18 (ix2 j c') * V (ix2 c' (0 : Fin 1)) :=
    fun V j => matmul_plain_zero_apply (φ₁ := .f32) (φ₂ := .f32) dot_S32x512_S512x1_S32x1_1_0_0_1_n_n_wf none v18 V j 0
  show Ideal.div (Ideal.ofBits .f32 0x3F800000#32) (Ideal.ofBits .f32 0x3F800000#32
      + Ideal.exp (Ideal.ofBits .f32 0x00000000#32
        - matmul (φ₁ := .f32) (φ₂ := .f32) dot_S512x32_S32x1_S512x1_1_0_0_1_n_n none v22 _ (constant (F := Ideal) S512x1 .f32 0x00000000#32)
            (ix2 c (0 : Fin 1)))) = _
  rw [hdec, Ideal.ofBits_zero_f32]
  unfold one
  refine congrArg (fun t => Ideal.div _ (_ + Ideal.exp (0 - t))) (Finset.sum_congr rfl fun j _ => ?_)
  show v22 (ix2 c j) * max (matmul (φ₁ := .f32) (φ₂ := .f32) dot_S32x512_S512x1_S32x1_1_0_0_1_n_n none v18 _
      (constant (F := Ideal) S32x1 .f32 0x00000000#32) (ix2 j (0 : Fin 1))) (Ideal.ofBits .f32 0x00000000#32) = _
  rw [henc, Ideal.ofBits_zero_f32]
  rfl

end Cert.RefPay

end
-- ==== Proof.PayAlgebra.lean ====
/-
  Two rearrangements that join the two-pass arrangement of the squeeze-and-excitation block to the one function
  `Cert.SE` states.

  The channel sum taken in two halves: the 4096 positions of a channel split into positions 0 … 2047 and
  2048 … 4095, and the sum over all of them is the sum over the first half (started from zero) plus the sum over
  the second.  Addition of extended reals is a commutative monoid, so no finiteness is needed.

  The gate with each product's factors in the other order: the encoder row times the squeezed channel instead of
  the squeezed channel times the encoder row, and the decoder row times the hidden value instead of the hidden
  value times the decoder row.  Multiplication of extended reals commutes.
-/
import proofs.«132724_g2000304347827060_pallasbulk_1236_8_alg».proof.Proof.Spec

noncomputable section

namespace Cert.RefPay

open Idealize.ShloMosaic Idealize.ShloMosaic.ValueIdx Cert.SE

/-- The sum over the 4096 positions is the sum over the first 2048 plus the sum over the last 2048. -/
theorem sum_two_halves (f : Fin 4096 → EReal) :
    ∑ s : Fin 4096, f s
      = (∑ s : Fin 2048, f ⟨s.val, by omega⟩) + ∑ s : Fin 2048, f ⟨2048 + s.val, by omega⟩ :=
  Fin.sum_univ_add (M := EReal) (a := 2048) (b := 2048) f

/-- The channel sum accumulated over two tiles of 2048 positions, from zero, is the channel's whole sum. -/
theorem pool_two_tiles (x : SX.Idx → EReal) (n : Fin 16) (c : Fin 512) :
    (0 + ∑ s : Fin 2048, x (ix4 n c (hPos ⟨s.val, by omega⟩) (wPos ⟨s.val, by omega⟩)))
        + ∑ s : Fin 2048, x (ix4 n c (hPos ⟨2048 + s.val, by omega⟩) (wPos ⟨2048 + s.val, by omega⟩))
      = pool x n c := by
  rw [zero_add]
  exact (sum_two_halves fun s => x (ix4 n c (hPos s) (wPos s))).symm

/-- The logistic gate with the factors of both contractions in the other order is the gate. -/
theorem gate_other_order (x : SX.Idx → EReal) (we : SEnc.Idx → EReal) (wd : SDec.Idx → EReal) (n : Fin 16)
    (c : Fin 512) :
    Ideal.div one (one + Ideal.exp (0 - ∑ j : Fin 32, wd (ix2 c j)
        * max (∑ c' : Fin 512, we (ix2 j c') * (pool x n c' * invS)) 0))
      = gate x we wd n c := by
  unfold gate logit Cert.SE.hidden squeeze
  have hin : ∀ j : Fin 32, (∑ c' : Fin 512, we (ix2 j c') * (pool x n c' * invS))
      = ∑ c' : Fin 512, pool x n c' * invS * we (ix2 j c') :=
    fun j => Finset.sum_congr rfl fun c' _ => mul_comm _ _
  have hout : (∑ j : Fin 32, wd (ix2 c j) * max (∑ c' : Fin 512, we (ix2 j c') * (pool x n c' * invS)) 0)
      = ∑ j : Fin 32, max (∑ c' : Fin 512, pool x n c' * invS * we (ix2 j c')) 0 * wd (ix2 c j) :=
    Finset.sum_congr rfl fun j _ => by rw [hin j, mul_comm]
  rw [hout]

end Cert.RefPay

end
-- ==== Proof.ArrPool.lean ====
/-
  The pooling region of the reference, from blocks to the array.  Grid point `t` is sample `t / 2` and tile
  `t % 2`.  The gate window is written back at the odd points only, a sample's last tile, and those 16 blocks
  `[1, 512, 1]` tile the `[16, 512, 1]` gate array.  At such a point the scratch column holds the zero column
  plus the row sums of the sample's two tiles, which is the channel sum over all 4096 positions; the stored value
  is the logistic gate of those sums, with the factors of the two contractions in the other order.  So the array
  ends holding, at (n, ch, 0), the gate of sample `n` and channel `ch`.
-/
import proofs.«132724_g2000304347827060_pallasbulk_1236_8_alg».proof.Proof.RefPoolData
import proofs.«132724_g2000304347827060_pallasbulk_1236_8_alg».proof.Proof.ArrScale
import proofs.«132724_g2000304347827060_pallasbulk_1236_8_alg».proof.Proof.Spec
import proofs.«132724_g2000304347827060_pallasbulk_1236_8_alg».proof.Proof.PayPool
import proofs.«132724_g2000304347827060_pallasbulk_1236_8_alg».proof.Proof.PayGate
import proofs.«132724_g2000304347827060_pallasbulk_1236_8_alg».proof.Proof.PayAlgebra
import Idealize.ShloMosaic.Lib.Pipeline.Value

set_option maxRecDepth 16384

noncomputable section

namespace Cert.RefArr

open Cert.ReferenceIdeal Cert.ReferenceIdeal.Gen Cert.ReferenceIdeal.Hand Cert.RefPay Cert.SE
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The four windows' block indices at point `t`, decided over the grid: the sample is `t / 2` and the tile `t % 2`;
    the activations' block moves with both, the gate column's with the sample only, the weights' never. -/
theorem pidx : ∀ t : Fin cfg0.N,
    win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = 0 ∧ win0_3.index t (2 : Fin 3) = 0 :=
  (by decide +kernel : ∀ t : Fin grid0.N, _)

/-- The encoder weight `[32, 512]` and the decoder weight `[512, 32]` as the region finds them. -/
abbrev encAt (c : Dev nD) : S32x512.Idx → EReal := V c main_arg1
abbrev decAt (c : Dev nD) : S512x32.Idx → EReal := V c main_arg2

/-- The activations' block at the point of sample `n` and tile `k`: its element `(0, ch, s)` is the array's at
    `(n, ch, 2048 k + s)`. -/
theorem tile_apply (c : Dev nD) (t : Fin cfg0.N) (n : Fin 16) (k : ℕ) (hn : t.val = 2 * n.val + k) (hk : k < 2)
    (ch : Fin 512) (s : Fin 2048) (p : Fin 4096) (hp : p.val = 2048 * k + s.val) :
    pblk V c 0 t (ix3 (0 : Fin 1) ch s) = actsAt V c (ix3 n ch p) := by
  obtain ⟨a0, a1, a2, -⟩ := pidx t
  show actsAt V c (((cfg0.win 0).blk t).view.emb (ix3 (0 : Fin 1) ch s)) = _
  congr 1
  funext a; apply Fin.ext
  match a with
  | ⟨0, _⟩ => show win0_0.index t (0 : Fin 3) * 1 + 1 * 0 = n.val; omega
  | ⟨1, _⟩ => show win0_0.index t (1 : Fin 3) * 512 + 1 * ch.val = ch.val; omega
  | ⟨2, _⟩ => show win0_0.index t (2 : Fin 3) * 2048 + 1 * s.val = p.val; omega

/-- Each weight's block is the whole weight at every point. -/
theorem enc_apply (c : Dev nD) (t : Fin cfg0.N) (j : Fin 32) (c' : Fin 512) :
    pblk V c 1 t (ix2 j c') = encAt V c (ix2 j c') := by
  obtain ⟨-, -, -, b0, b1, -⟩ := pidx t
  show encAt V c (((cfg0.win 1).blk t).view.emb (ix2 j c')) = _
  congr 1
  funext a; apply Fin.ext
  match a with
  | ⟨0, _⟩ => show win0_1.index t (0 : Fin 2) * 32 + 1 * j.val = j.val; omega
  | ⟨1, _⟩ => show win0_1.index t (1 : Fin 2) * 512 + 1 * c'.val = c'.val; omega

theorem dec_apply (c : Dev nD) (t : Fin cfg0.N) (ch : Fin 512) (j : Fin 32) :
    pblk V c 2 t (ix2 ch j) = decAt V c (ix2 ch j) := by
  obtain ⟨-, -, -, -, -, d0, d1, -⟩ := pidx t
  show decAt V c (((cfg0.win 2).blk t).view.emb (ix2 ch j)) = _
  congr 1
  funext a; apply Fin.ext
  match a with
  | ⟨0, _⟩ => show win0_2.index t (0 : Fin 2) * 512 + 1 * ch.val = ch.val; omega
  | ⟨1, _⟩ => show win0_2.index t (1 : Fin 2) * 32 + 1 * j.val = j.val; omega

/-- The running sums after a sample's last tile: the zero column plus the first tile's row sums plus the last
    tile's, which is the sample's channel sum over all 4096 positions. -/
theorem acc_last_apply (c : Dev nD) (x : SX.Idx → EReal)
    (hx : ∀ (n : Fin 16) (ch : Fin 512) (s : Fin 4096), actsAt V c (ix3 n ch s) = x (ix4 n ch (hPos s) (wPos s)))
    (t : Fin cfg0.N) (n : Fin 16) (hn : t.val = 2 * n.val + 1) (c' : Fin 512) :
    accAt V c t.val t.isLt (ix2 c' (0 : Fin 1)) = pool x n c' := by
  have ht : t.val < 32 := t.isLt
  have hodd : t.val % 2 = 1 := by omega
  have hlt : t.val - 1 < cfg0.N := by show t.val - 1 < 32; omega
  have hfirst : accAt V c (t.val - 1) hlt = k0_pay2 (pblk V c 0 ⟨t.val - 1, hlt⟩) (k0_pay1 (F := Ideal)) :=
    accAt_first V c ⟨t.val - 1, hlt⟩ (by show (t.val - 1) % 2 = 0; omega)
  rw [accAt_last V c t hodd, pay2_apply, hfirst, pay2_apply, pay1_apply, ← pool_two_tiles x n c']
  refine congrArg₂ (· + ·) (congrArg (0 + ·) ?_) ?_
  · exact Finset.sum_congr rfl fun s _ =>
      (tile_apply V c ⟨t.val - 1, hlt⟩ n 0 (by show t.val - 1 = 2 * n.val + 0; omega) (by omega) c' s ⟨s.val, by omega⟩
        (by show s.val = 2048 * 0 + s.val; omega)).trans (hx _ _ _)
  · exact Finset.sum_congr rfl fun s _ =>
      (tile_apply V c t n 1 hn (by omega) c' s ⟨2048 + s.val, by omega⟩
        (by show 2048 + s.val = 2048 * 1 + s.val; omega)).trans (hx _ _ _)

/-- The whole gate array: at (n, ch, 0) the gate of sample `n` and channel `ch`. -/
def gatesAll (c : Dev nD) (x : SX.Idx → EReal) : S16x512x1.Idx → EReal :=
  fun i => gate x (encAt V c) (decAt V c) (⟨(i 0).val, (i 0).isLt⟩ : Fin 16) (⟨(i 1).val, (i 1).isLt⟩ : Fin 512)

/-- What a sample's last tile writes back is the sample's block of `gatesAll`. -/
theorem pool_flushed (c : Dev nD) (x : SX.Idx → EReal)
    (hx : ∀ (n : Fin 16) (ch : Fin 512) (s : Fin 4096), actsAt V c (ix3 n ch s) = x (ix4 n ch (hPos s) (wPos s)))
    (t : Fin cfg0.N) (hf : (cfg0.win 3).flush t = true) :
    (pdat V c).flushed 3 t = ((cfg0.win 3).blk t).view.read (Elt Ideal) (gatesAll V c x) := by
  have hodd : t.val % 2 = 1 := (gate_flush_iff t).mp hf
  have ht : t.val < 32 := t.isLt
  obtain ⟨-, -, -, -, -, -, -, g0, g1, g2⟩ := pidx t
  show (cfg0.win 3).cut (grid0.coords t) ((pdat V c).after 3 t) = _
  rw [pdat_after_3]
  funext j
  obtain ⟨u, ch, v, rfl⟩ : ∃ (u : Fin 1) (ch : Fin 512) (v : Fin 1), j = ix3 u ch v := ⟨j 0, j 1, j 2, eq_ix3 j⟩
  obtain rfl : u = 0 := Subsingleton.elim _ _
  obtain rfl : v = 0 := Subsingleton.elim _ _
  show k0_pay3 (accAt V c t.val t.isLt) (pblk V c 1 t) (pblk V c 2 t) (ix3 0 ch 0)
    = gatesAll V c x (((cfg0.win 3).blk t).view.emb (ix3 0 ch 0))
  rw [pay3_apply]
  have hn : t.val = 2 * (⟨t.val / 2, by omega⟩ : Fin 16).val + 1 := by show t.val = 2 * (t.val / 2) + 1; omega
  have hG : gatesAll V c x (((cfg0.win 3).blk t).view.emb (ix3 0 ch 0))
      = gate x (encAt V c) (decAt V c) (⟨t.val / 2, by omega⟩ : Fin 16) ch := by
    unfold gatesAll
    congr 1 <;> apply Fin.ext
    · show win0_3.index t (0 : Fin 3) * 1 + 1 * 0 = t.val / 2; omega
    · show win0_3.index t (1 : Fin 3) * 512 + 1 * ch.val = ch.val; omega
  rw [hG, ← gate_other_order]
  refine congrArg (fun z => Ideal.div one (one + Ideal.exp (0 - z))) (Finset.sum_congr rfl fun j _ => ?_)
  rw [dec_apply]
  refine congrArg (fun z => decAt V c (ix2 ch j) * max z 0) (Finset.sum_congr rfl fun c' _ => ?_)
  rw [enc_apply, acc_last_apply V c x hx t _ hn c']

/-- An index of the gate array is in point `t`'s block iff each coordinate is in the block's range on its axis. -/
theorem pool_mem_blk (t : Fin cfg0.N) (i : S16x512x1.Idx) :
    i ∈ ((cfg0.win 3).blk t).view.set ↔ ∀ a : Fin 3, win0_3.index t a * S1x512x1.size a ≤ (i a).val
      ∧ (i a).val < win0_3.index t a * S1x512x1.size a + S1x512x1.size a := by
  show i ∈ ((View.whole main_v1).slice (win0_3.rect t)).set ↔ _
  rw [View.set_slice_whole, Rect.mem_set_unit]
  exact Iff.rfl

/-- Every element of the gate array is in the block of its sample's last tile, a point that writes back. -/
theorem pool_cover (i : S16x512x1.Idx) :
    ∃ t : Fin cfg0.N, (cfg0.win 3).flush t = true ∧ i ∈ ((cfg0.win 3).blk t).view.set := by
  have h0 : (i 0).val < 16 := (i 0).isLt
  have h1 : (i 1).val < 512 := (i 1).isLt
  have h2 : (i 2).val < 1 := (i 2).isLt
  have hN : cfg0.N = 32 := rfl
  let t : Fin cfg0.N := ⟨2 * (i 0).val + 1, by rw [hN]; omega⟩
  obtain ⟨-, -, -, -, -, -, -, g0, g1, g2⟩ := pidx t
  have tv : t.val = 2 * (i 0).val + 1 := rfl
  refine ⟨t, (gate_flush_iff t).mpr (by omega), ?_⟩
  rw [pool_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1 ≤ (i 2).val ∧ (i 2).val < win0_3.index t (2 : Fin 3) * 1 + 1; omega

/-- So the gate array ends holding `gatesAll`. -/
theorem pool_array (c : Dev nD) (x : SX.Idx → EReal)
    (hx : ∀ (n : Fin 16) (ch : Fin 512) (s : Fin 4096), actsAt V c (ix3 n ch s) = x (ix4 n ch (hPos s) (wPos s))) :
    (pdat V c).arrAt 3 cfg0.N = gatesAll V c x :=
  (pdat V c).arrAt_eq_of_cover 3 (gatesAll V c x) (pool_flushed V c x hx) pool_cover

/-- The gate array after the region, at sample `n` and channel `ch`. -/
theorem pool_final (c : Dev nD) (x : SX.Idx → EReal)
    (hx : ∀ (n : Fin 16) (ch : Fin 512) (s : Fin 4096), actsAt V c (ix3 n ch s) = x (ix4 n ch (hPos s) (wPos s)))
    (n : Fin 16) (ch : Fin 512) :
    (pdat V c).arrAt 3 cfg0.N (ix3 n ch (0 : Fin 1)) = gate x (encAt V c) (decAt V c) n ch := by
  rw [pool_array V c x hx]
  rfl

end Cert.RefArr

end
-- ==== Proof.RefValue.lean ====
/-
  What the reference leaves in its result buffer, read off the run's last contents.  The reshape back reads the
  rescaling region's output array at `(n, c, 64·h + w)`; that array, tile by tile, is the product of the reshaped
  activations and the gate array; the gate array is what the pooling region wrote back at each sample's last tile,
  which is the gate of the sample's sums over both tiles; and the reshaped activations at `(n, c, s)` are the
  argument at `(n, c, s / 64, s % 64)`.  Composed, the result is `Cert.SE.result` of the three arguments; the
  arguments themselves are written by no item.
-/
import proofs.«132724_g2000304347827060_pallasbulk_1236_8_alg».proof.Proof.RefRun
import proofs.«132724_g2000304347827060_pallasbulk_1236_8_alg».proof.Proof.HostReshape
import proofs.«132724_g2000304347827060_pallasbulk_1236_8_alg».proof.Proof.ArrScale
import proofs.«132724_g2000304347827060_pallasbulk_1236_8_alg».proof.Proof.ArrPool
import proofs.«132724_g2000304347827060_pallasbulk_1236_8_alg».proof.Proof.Spec

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat)
open Cert.SE

variable (m : (ℓ : Loc nD τ sig) → Buf (Elt Ideal) ℓ) (ρ : Dev nD → PrngReg)

/-- The three argument arrays of core `c` as launched, at their function types. -/
abbrev argX (c : Dev nD) : SX.Idx → EReal := m ((c : Thread nD τ).loc main_arg0)
abbrev argE (c : Dev nD) : SEnc.Idx → EReal := m ((c : Thread nD τ).loc main_arg1)
abbrev argD (c : Dev nD) : SDec.Idx → EReal := m ((c : Thread nD τ).loc main_arg2)

/-! ## The arguments reach the end as launched -/

theorem end_arg0 (c : Dev nD) : W4 m c (Proc.devRef .tc main_arg0) = m ((c : Thread nD τ).loc main_arg0) :=
  (Cert.RefHost.reshape_out_keeps (W3 m c) main_arg0 (by decide)).trans <|
    (W3_of_ne m c main_arg0 (by decide)).trans <| (W2_of_ne m c main_arg0 (by decide)).trans <|
      (Cert.RefHost.reshape_in_keeps (W0 m c) main_arg0 (by decide)).trans rfl
theorem entry_arg1 (c : Dev nD) : V1 m c main_arg1 = m ((c : Thread nD τ).loc main_arg1) :=
  (Cert.RefHost.reshape_in_keeps (W0 m c) main_arg1 (by decide)).trans rfl
theorem entry_arg2 (c : Dev nD) : V1 m c main_arg2 = m ((c : Thread nD τ).loc main_arg2) :=
  (Cert.RefHost.reshape_in_keeps (W0 m c) main_arg2 (by decide)).trans rfl
theorem end_arg1 (c : Dev nD) : W4 m c (Proc.devRef .tc main_arg1) = m ((c : Thread nD τ).loc main_arg1) :=
  (Cert.RefHost.reshape_out_keeps (W3 m c) main_arg1 (by decide)).trans <|
    (W3_of_ne m c main_arg1 (by decide)).trans <| (W2_arr m c 1).trans <|
      ((pdat (V1 m) c).arrAt_in 1 rfl _).trans <| (pdat_A (V1 m) c 1).trans (entry_arg1 m c)
theorem end_arg2 (c : Dev nD) : W4 m c (Proc.devRef .tc main_arg2) = m ((c : Thread nD τ).loc main_arg2) :=
  (Cert.RefHost.reshape_out_keeps (W3 m c) main_arg2 (by decide)).trans <|
    (W3_of_ne m c main_arg2 (by decide)).trans <| (W2_arr m c 2).trans <|
      ((pdat (V1 m) c).arrAt_in 2 rfl _).trans <| (pdat_A (V1 m) c 2).trans (entry_arg2 m c)

/-! ## The result -/

/-- The reshaped activations, as the pooling region finds them. -/
theorem entry_v0 (c : Dev nD) (n : Fin 16) (ch : Fin 512) (s : Fin 4096) :
    Cert.RefArr.actsAt (V1 m) c (ix3 n ch s) = argX m c (ix4 n ch (hPos s) (wPos s)) :=
  Cert.RefHost.reshape_in_apply (W0 m c) n ch s
/-- The rescaling region finds them unchanged (the pooling region only reads them) … -/
theorem mid_v0 (c : Dev nD) : V2 m c main_v0 = V1 m c main_v0 :=
  (W2_arr m c 0).trans (((pdat (V1 m) c).arrAt_in 0 rfl _).trans (pdat_A (V1 m) c 0))
/-- … and finds the gate array at the gates. -/
theorem mid_v1 (c : Dev nD) (n : Fin 16) (ch : Fin 512) :
    Cert.RefArr.gatesAt (V2 m) c (ix3 n ch (0 : Fin 1)) = gate (argX m c) (argE m c) (argD m c) n ch := by
  rw [show Cert.RefArr.gatesAt (V2 m) c = (pdat (V1 m) c).arrAt 3 cfg0.N from W2_arr m c 3,
    Cert.RefArr.pool_final (V1 m) c (argX m c) (entry_v0 m c) n ch,
    show Cert.RefArr.encAt (V1 m) c = argE m c from entry_arg1 m c, show Cert.RefArr.decAt (V1 m) c = argD m c from entry_arg2 m c]
/-- The rescaling region's output array. -/
theorem out_v2 (c : Dev nD) (n : Fin 16) (ch : Fin 512) (s : Fin 4096) :
    (W3 m c (Proc.devRef .tc main_v2) : S16x512x4096.Idx → EReal) (ix3 n ch s)
      = argX m c (ix4 n ch (hPos s) (wPos s)) * gate (argX m c) (argE m c) (argD m c) n ch := by
  rw [show (W3 m c (Proc.devRef .tc main_v2) : S16x512x4096.Idx → EReal) = (sdat (V2 m) c).arrAt 2 cfg1.N from W3_arr m c 2,
    Cert.RefArr.scale_final (V2 m) c n ch s, show Cert.RefArr.actsAt (V2 m) c = Cert.RefArr.actsAt (V1 m) c from mid_v0 m c, entry_v0, mid_v1]

/-- The result buffer at the end. -/
theorem end_result (c : Dev nD) :
    (W4 m c (Proc.devRef .tc main_v3) : SX.Idx → EReal) = result (argX m c) (argE m c) (argD m c) := by
  funext i
  obtain ⟨n, ch, h, w, rfl⟩ : ∃ (n : Fin 16) (ch : Fin 512) (h w : Fin 64), i = ix4 n ch h w := ⟨i 0, i 1, i 2, i 3, eq_ix4 i⟩
  refine (Cert.RefHost.reshape_out_apply (W3 m c) n ch h w).trans ?_
  rw [out_v2, result_apply]
  have eh : hPos ⟨h.val * 64 + w.val, by omega⟩ = h := Fin.ext (by show (h.val * 64 + w.val) / 64 = h.val; omega)
  have ew : wPos ⟨h.val * 64 + w.val, by omega⟩ = w := Fin.ext (by show (h.val * 64 + w.val) % 64 = w.val; omega)
  rw [eh, ew]

/-- THE REFERENCE'S RUN, with its result named. -/
theorem run_result : θ_run (defs (F := Ideal)) (onTc (τ := τ) (main (F := Ideal))) ⟨m, fun _ => 0, ρ⟩ (fun r => ∀ c : Dev nD,
      r.2.mem ((c.tc : Thread nD τ).loc main_v3)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3 (by decide))).trans (end_result m c),
     (h c _ (mem_uc main_arg0 (by decide))).trans (end_arg0 m c),
     (h c _ (mem_uc main_arg1 (by decide))).trans (end_arg1 m c),
     (h c _ (mem_uc main_arg2 (by decide))).trans (end_arg2 m c)⟩) (run_all m ρ)

end Cert.ReferenceIdeal.Hand

end
-- ==== Proof.lean ====
/-
  The certificate of the squeeze-and-excitation kernel against its reference.

  Both programs, read over the extended reals, compute one function of the activations `x` and the two weights
  (Proof/Spec.lean, `Cert.SE.result`): each channel of each sample is summed over its 4096 positions, scaled by the
  float 1/4096, passed through the two contractions with a clamp at zero between them and through the logistic, and
  the resulting gate multiplies the channel.  The kernel does this for a whole sample in one grid point on a
  channels-last copy (Proof/KernelPayload.lean, KernelBlocks.lean, KernelValue.lean).  The reference accumulates the
  sums over two tiles of 2048 positions in a scratch column, forms the gate at the second tile with the factors of
  each product in the other order, and rescales in a second region (Proof/RefPool.lean … RefValue.lean, with the
  payloads read at an index in Proof/Pay*.lean and the regions' output arrays in Proof/Arr*.lean).  The two agree
  because a sum over 4096 terms is the sum of its two halves and products commute — laws of the extended reals that
  need no finiteness, so the precondition is never opened.  The ideal pass rewrote nothing, so `preserves` is trivial;
  the word-level kernel's frame and the idealized kernel's are the generated ones, and the reference's frame is its
  run with the result dropped.
-/
import proofs.«132724_g2000304347827060_pallasbulk_1236_8_alg».proof.Defs
import proofs.«132724_g2000304347827060_pallasbulk_1236_8_alg».proof.Proof.Gen.Kernel
import proofs.«132724_g2000304347827060_pallasbulk_1236_8_alg».proof.Proof.Gen.Kernel.Skeleton
import proofs.«132724_g2000304347827060_pallasbulk_1236_8_alg».proof.Proof.Gen.Kernel.Launch
import proofs.«132724_g2000304347827060_pallasbulk_1236_8_alg».proof.Proof.Gen.Kernel.Points
import proofs.«132724_g2000304347827060_pallasbulk_1236_8_alg».proof.Proof.Gen.Kernel.Frame
import proofs.«132724_g2000304347827060_pallasbulk_1236_8_alg».proof.Proof.Gen.KernelIdeal
import proofs.«132724_g2000304347827060_pallasbulk_1236_8_alg».proof.Proof.Gen.KernelIdeal.Skeleton
import proofs.«132724_g2000304347827060_pallasbulk_1236_8_alg».proof.Proof.Gen.KernelIdeal.Launch
import proofs.«132724_g2000304347827060_pallasbulk_1236_8_alg».proof.Proof.Gen.KernelIdeal.Points
import proofs.«132724_g2000304347827060_pallasbulk_1236_8_alg».proof.Proof.Gen.KernelIdeal.Frame
import proofs.«132724_g2000304347827060_pallasbulk_1236_8_alg».proof.Proof.Gen.ReferenceIdeal
import proofs.«132724_g2000304347827060_pallasbulk_1236_8_alg».proof.Proof.Gen.ReferenceIdeal.Skeleton
import proofs.«132724_g2000304347827060_pallasbulk_1236_8_alg».proof.Proof.Gen.ReferenceIdeal.Launch
import proofs.«132724_g2000304347827060_pallasbulk_1236_8_alg».proof.Proof.Gen.ReferenceIdeal.Regions
import proofs.«132724_g2000304347827060_pallasbulk_1236_8_alg».proof.Proof.Gen.ReferenceIdeal.Points
import proofs.«132724_g2000304347827060_pallasbulk_1236_8_alg».proof.Proof.Gen.Pre_finite_inputs
import proofs.«132724_g2000304347827060_pallasbulk_1236_8_alg».proof.Proof.KernelValue
import proofs.«132724_g2000304347827060_pallasbulk_1236_8_alg».proof.Proof.RefValue
import Idealize.ShloMosaic.Adequacy
import Idealize.ShloMosaic.Init

noncomputable section

namespace Cert.Proof

open Idealize.ShloMosaic Idealize.SL.Sem

/-- The word-level kernel and the idealized kernel run and keep their arguments: the generated frames. -/
theorem frame_kernel : Cert.frame_Kernel := fun m ρ _ => Cert.Kernel.Gen.frame m ρ
theorem frame_kernelIdeal : Cert.frame_KernelIdeal := fun m ρ _ => Cert.KernelIdeal.Gen.frame m ρ
/-- The reference runs and keeps its arguments: its run with the result dropped. -/
theorem frame_reference : Cert.frame_ReferenceIdeal := fun m ρ _ =>
  (θ_run Cert.ReferenceIdeal.defs _ _).mono (fun _ h c => (h c).2) (Cert.ReferenceIdeal.Hand.run_result m ρ)

/-- The ideal pass rewrote no operation. -/
theorem preserves : Cert.preserves_Kernel_KernelIdeal := trivial

/-- From memories agreeing on the arguments both programs end with the result buffer at `Cert.SE.result` of the
    arguments: the kernel's run and the reference's, the reference's arguments rewritten to the kernel's. -/
theorem algebraic : Cert.algebraic_KernelIdeal_ReferenceIdeal := by
  intro m ρ m' ρ' _ hagree
  refine ⟨_, Cert.KernelSide.run m ρ, ?_⟩
  refine (θ_run Cert.ReferenceIdeal.defs _ _).mono (fun _ h c => ⟨(h c).1.trans ?_, (h c).2⟩)
    (Cert.ReferenceIdeal.Hand.run_result m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
